-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S50257x2048 : Shape := ⟨2, ![50257, 2048]⟩
abbrev S8192x2048 : Shape := ⟨2, ![8192, 2048]⟩
abbrev S8192 : Shape := ⟨1, ![8192]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S50257x2048 : S_.BroadcastsInDim S50257x2048 (![] : Fin 0 → Fin S50257x2048.rank)
  reducesTo_S50257x2048_S_d0_1 : S50257x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S50257 : S_.BroadcastsInDim S50257 (![] : Fin 0 → Fin S50257.rank)
  reducesTo_S50257_S_d0 : S50257.ReducesTo [0] S_

variable [Facts]

def fn_part2 {F : FTy → Type} [FloatOps F] (main_arg8 : FVec F S50257x2048 .f32) (main_arg9 : FVec F S50257 .f32) (main_v33 : IVec S_ 1) : IVec S_ 1 :=
  let main_v34 : FVec F S50257x2048 .f32 := Host.absf main_arg8
  let main_cst_12 : FVec F S_ .f32 := constant S_ .f32 0x7F800000#32
  let main_v35 : FVec F S50257x2048 .f32 := broadcastInDim S50257x2048 ![] bcast_S_S50257x2048 main_cst_12
  let main_v36 : IVec S50257x2048 1 := cmpf .olt main_v34 main_v35
  let main_c_13 : IVec S_ 1 := constantI S_ 1 1#1
  let main_v37 : IVec S_ 1 := (fun x v => Host.reduce IntOp.andi x v reducesTo_S50257x2048_S_d0_1 h_S_) main_v36 main_c_13
  let main_v38 : IVec S_ 1 := andi main_v33 main_v37
  let main_v39 : FVec F S50257 .f32 := Host.absf main_arg9
  let main_cst_14 : FVec F S_ .f32 := constant S_ .f32 0x7F800000#32
  let main_v40 : FVec F S50257 .f32 := broadcastInDim S50257 ![] bcast_S_S50257 main_cst_14
  let main_v41 : IVec S50257 1 := cmpf .olt main_v39 main_v40
  let main_c_15 : IVec S_ 1 := constantI S_ 1 1#1
  let main_v42 : IVec S_ 1 := (fun x v => Host.reduce IntOp.andi x v reducesTo_S50257_S_d0 h_S_) main_v41 main_c_15
  let main_v43 : IVec S_ 1 := andi main_v38 main_v42
  main_v43

def fn_part1 {F : FTy → Type} [FloatOps F] (main_arg5 : FVec F S8192x2048 .f32) (main_arg6 : FVec F S8192 .f32) (main_arg7 : FVec F S8192 .f32) (main_arg8 : FVec F S50257x2048 .f32) (main_arg9 : FVec F S50257 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg7
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg8 main_arg9 main_v33

def fn {F : FTy → Type} [FloatOps F] (main_arg0 : IVec S1 32) (main_arg1 : FVec F S1x1x2048 .f32) (main_arg2 : FVec F S1x1x2048 .f32) (main_arg3 : FVec F S50257x2048 .f32) (main_arg4 : FVec F S8192x2048 .f32) (main_arg5 : FVec F S8192x2048 .f32) (main_arg6 : FVec F S8192 .f32) (main_arg7 : FVec F S8192 .f32) (main_arg8 : FVec F S50257x2048 .f32) (main_arg9 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x1x2048 .f32 := Host.absf main_arg2
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S8192x2048 .f32 := Host.absf main_arg4
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg5 main_arg6 main_arg7 main_arg8 main_arg9 main_v13 main_v16
-- ==== Kernel.lean ====
abbrev S1 : Shape := ⟨1, ![1]⟩
abbrev S1x1x2048 : Shape := ⟨3, ![1, 1, 2048]⟩
abbrev S50257x2048 : Shape := ⟨2, ![50257, 2048]⟩
abbrev S8192x2048 : Shape := ⟨2, ![8192, 2048]⟩
abbrev S8192 : Shape := ⟨1, ![8192]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x8192 : Shape := ⟨2, ![1, 8192]⟩
abbrev S1x50257 : Shape := ⟨2, ![1, 50257]⟩
abbrev S512x2048 : Shape := ⟨2, ![512, 2048]⟩
abbrev S1x512 : Shape := ⟨2, ![1, 512]⟩
abbrev S1536x2048 : Shape := ⟨2, ![1536, 2048]⟩
abbrev S1x1536 : Shape := ⟨2, ![1, 1536]⟩

abbrev nBuf : Space → Nat
  | .hbm => 80
  | .vmem => 19
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x1x2048, .f32⟩
  | .hbm, ⟨3, _⟩ => ⟨S50257x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S50257x2048, .f32⟩
  | .hbm, ⟨9, _⟩ => ⟨S50257, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x50257, .f32⟩
  | .hbm, ⟨62, _⟩ => ⟨S1x50257, .f32⟩
  | .hbm, ⟨63, _⟩ => ⟨S_, .f32⟩
  | .hbm, ⟨64, _⟩ => ⟨S1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S1x50257, .f32⟩
  | .hbm, ⟨70, _⟩ => ⟨S1x50257, .f32⟩
  | .hbm, ⟨71, _⟩ => ⟨S1x50257, .f32⟩
  | .hbm, ⟨72, _⟩ => ⟨S_, .f32⟩
  | .hbm, ⟨73, _⟩ => ⟨S1, .f32⟩
  | .hbm, ⟨74, _⟩ => ⟨S1x1, .f32⟩
  | .hbm, ⟨75, _⟩ => ⟨S1x1, .f32⟩
  | .hbm, ⟨76, _⟩ => ⟨S1x50257, .f32⟩
  | .hbm, ⟨77, _⟩ => ⟨S1x50257, .f32⟩
  | .hbm, ⟨78, _⟩ => ⟨S1x1x2048, .f32⟩
  | .hbm, ⟨79, _⟩ => ⟨S1x1x2048, .f32⟩
  | .local _ .vmem, ⟨0, _⟩ => ⟨S1x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x2048, .f32⟩
  | .local _ .vmem, ⟨13, _⟩ => ⟨S1536x2048, .f32⟩
  | .local _ .vmem, ⟨14, _⟩ => ⟨S1536x2048, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S1x1536, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_cst : Ref sig .tc := ⟨.hbm, 30, rfl⟩
abbrev main_call0_v16 : Ref sig .tc := ⟨.hbm, 31, rfl⟩
abbrev main_call0_v17 : Ref sig .tc := ⟨.hbm, 32, rfl⟩
abbrev main_call0_cst_1 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_cst_2 : Ref sig .tc := ⟨.hbm, 39, rfl⟩
abbrev main_call0_v23 : Ref sig .tc := ⟨.hbm, 40, rfl⟩
abbrev main_call0_v24 : Ref sig .tc := ⟨.hbm, 41, rfl⟩
abbrev main_call0_cst_3 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_cst_4 : Ref sig .tc := ⟨.hbm, 50, rfl⟩
abbrev main_call0_v32 : Ref sig .tc := ⟨.hbm, 51, rfl⟩
abbrev main_call0_v33 : Ref sig .tc := ⟨.hbm, 52, rfl⟩
abbrev main_call0_cst_5 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_call1_cst : Ref sig .tc := ⟨.hbm, 63, rfl⟩
abbrev main_call0_call1_v0 : Ref sig .tc := ⟨.hbm, 64, rfl⟩
abbrev main_call0_call1_cst_0 : Ref sig .tc := ⟨.hbm, 65, rfl⟩
abbrev main_call0_call1_v1 : Ref sig .tc := ⟨.hbm, 66, rfl⟩
abbrev main_call0_call1_v2 : Ref sig .tc := ⟨.hbm, 67, rfl⟩
abbrev main_call0_call1_v3 : Ref sig .tc := ⟨.hbm, 68, rfl⟩
abbrev main_call0_call1_v4 : Ref sig .tc := ⟨.hbm, 69, rfl⟩
abbrev main_call0_call1_v5 : Ref sig .tc := ⟨.hbm, 70, rfl⟩
abbrev main_call0_call1_v6 : Ref sig .tc := ⟨.hbm, 71, rfl⟩
abbrev main_call0_call1_cst_1 : Ref sig .tc := ⟨.hbm, 72, rfl⟩
abbrev main_call0_call1_v7 : Ref sig .tc := ⟨.hbm, 73, rfl⟩
abbrev main_call0_call1_v8 : Ref sig .tc := ⟨.hbm, 74, rfl⟩
abbrev main_call0_call1_v9 : Ref sig .tc := ⟨.hbm, 75, rfl⟩
abbrev main_call0_call1_v10 : Ref sig .tc := ⟨.hbm, 76, rfl⟩
abbrev main_v0_0 : Ref sig .tc := ⟨.hbm, 77, rfl⟩
abbrev main_v0_1 : Ref sig .tc := ⟨.hbm, 78, rfl⟩
abbrev main_v0_2 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![33], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x2048 : S_.BroadcastsInDim S1x2048 (![] : Fin 0 → Fin S1x2048.rank)
  shapeCasts_S1x1x2048_S1x2048 : S1x1x2048.ShapeCasts S1x2048
  shapeCasts_S8192_S1x8192 : S8192.ShapeCasts S1x8192
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  shapeCasts_S50257_S1x50257 : S50257.ShapeCasts S1x50257
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1536x2048_S1536x2048_0_0 : ∀ a, (![0, 0] : Fin 2 → Nat) a + S1536x2048.size a ≤ S1536x2048.size a
  h_S1536x2048 : 0 < S1536x2048.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  gather_S50257x2048_S1x1_S1x2048_1_0_n_n_0_1_12048_wf : GatherDims.WF S50257x2048 S1x1 S1x2048 [1] [0] [] [0] [] 1 ![1, 2048]
  dot_S1x2048_S512x2048_S1x512_1_1_0_0_n_n_wf : DotDims.WF S1x2048 S512x2048 S1x512 [1] [1] [0] [0] [] []
  dot_S1x2048_S1536x2048_S1x1536_1_1_0_0_n_n_wf : DotDims.WF S1x2048 S1536x2048 S1x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1536x2048.size a < S50257x2048.size a
  hwx1_1 : ∀ i : grid1.Coords, EltTy.bits .f32 = 32 ∨ (Rect.unit (s := S50257x2048) (fun a => cc1_transform_1 i a * S1536x2048.size a) (fun a => (Pipeline.Clip.of (cc1_transform_1 i a) (S1536x2048.size a) (S50257x2048.size a)).extent (S1536x2048.size a)) fun a => Pipeline.Clip.inb (Pipeline.Clip.ok_of (hstart1_1 i a))).WholeWords (EltTy.packing .f32)
  hwxs1_1 : ∀ i : grid1.Coords, EltTy.bits .f32 = 32 ∨ (Rect.unit (s := S1536x2048) (fun _ => 0) (fun a => (Pipeline.Clip.of (cc1_transform_1 i a) (S1536x2048.size a) (S50257x2048.size a)).extent (S1536x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1536.size a < S1x50257.size a
  hwx1_2 : ∀ i : grid1.Coords, EltTy.bits .f32 = 32 ∨ (Rect.unit (s := S1x50257) (fun a => cc1_transform_2 i a * S1x1536.size a) (fun a => (Pipeline.Clip.of (cc1_transform_2 i a) (S1x1536.size a) (S1x50257.size a)).extent (S1x1536.size a)) fun a => Pipeline.Clip.inb (Pipeline.Clip.ok_of (hstart1_2 i a))).WholeWords (EltTy.packing .f32)
  hwxs1_2 : ∀ i : grid1.Coords, EltTy.bits .f32 = 32 ∨ (Rect.unit (s := S1x1536) (fun _ => 0) (fun a => (Pipeline.Clip.of (cc1_transform_2 i a) (S1x1536.size a) (S1x50257.size a)).extent (S1x1536.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x1536.size a < S1x50257.size a
  hwx1_3 : ∀ i : grid1.Coords, EltTy.bits .f32 = 32 ∨ (Rect.unit (s := S1x50257) (fun a => cc1_transform_3 i a * S1x1536.size a) (fun a => (Pipeline.Clip.of (cc1_transform_3 i a) (S1x1536.size a) (S1x50257.size a)).extent (S1x1536.size a)) fun a => Pipeline.Clip.inb (Pipeline.Clip.ok_of (hstart1_3 i a))).WholeWords (EltTy.packing .f32)
  hwxs1_3 : ∀ i : grid1.Coords, EltTy.bits .f32 = 32 ∨ (Rect.unit (s := S1x1536) (fun _ => 0) (fun a => (Pipeline.Clip.of (cc1_transform_3 i a) (S1x1536.size a) (S1x50257.size a)).extent (S1x1536.size a)) fun a => (Nat.zero_add _).trans_le (Pipeline.Clip.extent_le (Pipeline.Clip.ok_of (hstart1_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x2048_S1536x2048_S1x1536_1_1_0_0_n_n : DotDims S1x2048 S1536x2048 S1x1536 where
  lhsContracting := [1]
  rhsContracting := [1]
  lhsNonContracting := [0]
  rhsNonContracting := [0]
  lhsBatch := []
  rhsBatch := []
  wf := dot_S1x2048_S1536x2048_S1x1536_1_1_0_0_n_n_wf

abbrev win0_0 : Pipeline.Window sig grid0 :=
  Pipeline.Window.ofSpec (Memref.whole main_call0_v7) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v40) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg8) S1536x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_call0_v41) S1x1536.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_call0_v42) S1x1536.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S50257x2048 : Shape := ⟨2, ![50257, 2048]⟩
abbrev S8192x2048 : Shape := ⟨2, ![8192, 2048]⟩
abbrev S8192 : Shape := ⟨1, ![8192]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S2048x8192 : Shape := ⟨2, ![2048, 8192]⟩
abbrev S1x8192 : Shape := ⟨2, ![1, 8192]⟩
abbrev S2048x50257 : Shape := ⟨2, ![2048, 50257]⟩
abbrev S1x50257 : Shape := ⟨2, ![1, 50257]⟩

abbrev nBuf : Space → Nat
  | .hbm => 88
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x1x2048, .f32⟩
  | .hbm, ⟨3, _⟩ => ⟨S50257x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S50257x2048, .f32⟩
  | .hbm, ⟨9, _⟩ => ⟨S50257, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S2048x8192, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S2048x8192, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S1x8192, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S_, .f32⟩
  | .hbm, ⟨46, _⟩ => ⟨S1x2048, .f32⟩
  | .hbm, ⟨47, _⟩ => ⟨S1x2048, .f32⟩
  | .hbm, ⟨48, _⟩ => ⟨S_, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S2048x50257, .f32⟩
  | .hbm, ⟨68, _⟩ => ⟨S1x50257, .f32⟩
  | .hbm, ⟨69, _⟩ => ⟨S1x50257, .f32⟩
  | .hbm, ⟨70, _⟩ => ⟨S1x50257, .f32⟩
  | .hbm, ⟨71, _⟩ => ⟨S_, .f32⟩
  | .hbm, ⟨72, _⟩ => ⟨S1, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S1x1, .f32⟩
  | .hbm, ⟨77, _⟩ => ⟨S1x50257, .f32⟩
  | .hbm, ⟨78, _⟩ => ⟨S1x50257, .f32⟩
  | .hbm, ⟨79, _⟩ => ⟨S1x50257, .f32⟩
  | .hbm, ⟨80, _⟩ => ⟨S_, .f32⟩
  | .hbm, ⟨81, _⟩ => ⟨S1, .f32⟩
  | .hbm, ⟨82, _⟩ => ⟨S1x1, .f32⟩
  | .hbm, ⟨83, _⟩ => ⟨S1x1, .f32⟩
  | .hbm, ⟨84, _⟩ => ⟨S1x50257, .f32⟩
  | .hbm, ⟨85, _⟩ => ⟨S1x50257, .f32⟩
  | .hbm, ⟨86, _⟩ => ⟨S1x1x2048, .f32⟩
  | .hbm, ⟨87, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x2048 : S_.BroadcastsInDim S1x2048 (![] : Fin 0 → Fin S1x2048.rank)
  shapeCasts_S1x1x2048_S1x2048 : S1x1x2048.ShapeCasts S1x2048
  transposes_S8192x2048_S2048x8192_1_0 : S8192x2048.Transposes [1, 0] S2048x8192
  bcast_S8192_S1x8192_1 : S8192.BroadcastsInDim S1x8192 (![1] : Fin 1 → Fin S1x8192.rank)
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x2048_S2048x8192_S1x8192_1_0_0_1_n_n_wf : DotDims.WF S1x2048 S2048x8192 S1x8192 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.FrameK0.lean ====
/- The frame of region 0 (the gates kernel) by exact proof data, at any float reading.
   The body reads six input blocks whole, and stores into the output block one value computed from
   them; so what it leaves in the output staging buffer is a closed function of the six input blocks
   at the point, and every input buffer holds its block at every point, fetched there or not. -/
import proofs.«116744_j18193481466337_2_alg».proof.Proof.Gen.Kernel.Launch
import proofs.«116744_j18193481466337_2_alg».proof.Proof.Gen.Kernel.Skeleton
import proofs.«116744_j18193481466337_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any
    exact proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any
    exact proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any
    exact proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any
    exact proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any
    exact proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any
    exact proof data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rA : Rect S1x2048 := Rect.unit (s := S1x2048) ![0, 0] S1x2048.size inb_S1x2048_S1x2048_0_0
abbrev rB : Rect S512x2048 := Rect.unit (s := S512x2048) ![0, 0] S512x2048.size inb_S512x2048_S512x2048_0_0
abbrev rC : Rect S1x512 := Rect.unit (s := S1x512) ![0, 0] S1x512.size inb_S1x512_S1x512_0_0

/-- What the body leaves in the output window's buffer, from the six input blocks: its one store. -/
def out0_6 (x0 : Vec F S1x2048 .f32) (x1 : Vec F S1x2048 .f32) (x2 : Vec F S512x2048 .f32) (x3 : Vec F S512x2048 .f32) (x4 : Vec F S1x512 .f32) (x5 : Vec F S1x512 .f32) : Vec F S1x512 .f32 :=
  View.canon [⟨rC, k0_pay1 (View.ld x0 rA) (View.ld x1 rA) (View.ld x2 rB) (View.ld x3 rB) (View.ld x4 rC) (View.ld x5 rC)⟩]

/-- The store covers the buffer. -/
theorem cover0_6 (p0 : Vec F S1x512 .f32) (y : S1x512.Idx) :
    ∃ pc ∈ ([⟨rC, p0⟩] : List (View.Piece (Elt F) S1x512 .f32)), y ∈ pc.1.set :=
  View.cover_of_tiled [⟨rC, p0⟩] S1x512.size (by rfl) y

/-! ## The body's triple -/

set_option maxHeartbeats 1000000 in
/-- The body on whole staging memrefs, the inputs' at read contents `xW` and the output's at anything, runs to the
    continuation holding the inputs' as they were and the output's at `out0_6` of the inputs'. -/
theorem sound_kernel0 (c : Dev nD) (E : Set ℕ) (i : grid0.Coords) (arg0 : Memref sig .tc .vmem S1x2048 .f32) (harg0 : arg0.IsWhole) (arg1 : Memref sig .tc .vmem S1x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole)
    (x0 : Vec F S1x2048 .f32) (x1 : Vec F S1x2048 .f32) (x2 : Vec F S512x2048 .f32) (x3 : Vec F S512x2048 .f32) (x4 : Vec F S1x512 .f32) (x5 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gates_kernel i arg0 harg0 arg1 harg1 arg2 harg2 arg3 harg3 arg4 harg4 arg5 harg5 arg6 harg6) K := by
  simp only [cc0__gates_kernel_eq_skeleton]; unfold cc0__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The exact proof data of pipeline 0 on core `c`: the arrays as the region finds them; after the body at point
    `t` each input's buffer at its block and the output's at `out0_6` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.HandFrame

end
-- ==== Proof.FrameK1.lean ====
/- The frame of region 1 (the output projection kernel) by relational proof data, at any float reading.
   The last block of three of its windows overhangs its array, so the staging buffers' tails hold words nothing
   names; the proof data therefore says nothing of what the body leaves in any buffer: from any contents of the
   four current buffers the body runs, without a fault, to some contents. -/
import proofs.«116744_j18193481466337_2_alg».proof.Proof.Gen.Kernel.Launch
import proofs.«116744_j18193481466337_2_alg».proof.Proof.Gen.Kernel.Skeleton
import proofs.«116744_j18193481466337_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The body's triple -/

set_option maxHeartbeats 1000000 in
/-- The body on whole staging memrefs at any contents runs to the continuation holding each at some contents:
    three whole loads, a whole load of the output buffer whose value nothing reads, one whole store. -/
theorem sound_kernel1 (c : Dev nD) (E : Set ℕ) (i : grid1.Coords) (arg0 : Memref sig .tc .vmem S1x2048 .f32) (harg0 : arg0.IsWhole) (arg1 : Memref sig .tc .vmem S1536x2048 .f32) (harg1 : arg1.IsWhole) (arg2 : Memref sig .tc .vmem S1x1536 .f32) (harg2 : arg2.IsWhole) (arg3 : Memref sig .tc .vmem S1x1536 .f32) (harg3 : arg3.IsWhole) (K : PUnit → sProp 𝕄) :
    iprop((∃ d, owns (c : Thread nD τ) arg0 fullShare d) ∗ (∃ d, owns (c : Thread nD τ) arg1 fullShare d) ∗ (∃ d, owns (c : Thread nD τ) arg2 fullShare d) ∗ (∃ d, owns (c : Thread nD τ) arg3 fullShare d)
        ∗ (iprop((∃ d, owns (c : Thread nD τ) arg0 fullShare d) ∗ (∃ d, owns (c : Thread nD τ) arg1 fullShare d) ∗ (∃ d, owns (c : Thread nD τ) arg2 fullShare d) ∗ (∃ d, owns (c : Thread nD τ) arg3 fullShare d)) -∗ K ⟨⟩))
      ⊢ wp frame (wpE (defs₀ (F := F)) Variants.none c none) E (cc1__out_kernel i arg0 harg0 arg1 harg1 arg2 harg2 arg3 harg3) K := by
  simp only [cc1__out_kernel_eq_skeleton]; unfold cc1__out_kernel_skel
  unfold owns
  iintro ⟨⟨%d0, %f0, -, H0⟩, ⟨%d1, %f1, -, H1⟩, ⟨%d2, %f2, -, H2⟩, ⟨%d3, %f3, -, H3⟩, Hk⟩
  sl_exec
  sl_step
  iapply Hk
  isplitl [H0]
  · iexists _; iexists f0; isplitr
    swap; · iexact H0
    ipureintro; rfl
  isplitl [H1]
  · iexists _; iexists f1; isplitr
    swap; · iexact H1
    ipureintro; rfl
  isplitl [H2]
  · iexists _; iexists f2; isplitr
    swap; · iexact H2
    ipureintro; rfl
  iexists _; iexists _; isplitr
  swap; · iexact H3
  ipureintro; rfl

/-! ## The pipeline's proof data -/

/-- The relational proof data of pipeline 1 on core `c`: the arrays as the region finds them; of what the body
    leaves in a buffer, nothing; the invariant the scoped rest and the generator register, untouched; nothing
    owed; full shares. -/
def rdat1 (c : Dev nD) : Pipeline.RDat τ (Elt F) Unit ℕ (UR sig nD τ) ℕ cfg1 c where
  A w := V c (Pipeline.arrRef spec1 w)
  after _ _ _ _ := True
  Φ _ := Pipeline.ΦA spec1 c
  q _ := fullShare
  owed _ := 0

theorem A_eq1 (c : Dev nD) (w : Fin cfg1.W) : (rdat1 V c).A w = V c (Pipeline.arrRef spec1 w) := rfl

/-- The body at any point, from any contents of the four current buffers. -/
theorem sound_body1 (c : Dev nD) (t : Fin cfg1.N) (Y : (w : Fin cfg1.W) → (cfg1.win w).block.Idx → Elt F (cfg1.win w).elt) :
    iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) (fun _ =>
        iprop((rdat1 V c).Φ t.succ ∗ (rdat1 V c).owesAt () t.succ
          ∗ (∃ X, ⌜(rdat1 V c).after 0 t (Y 0) X⌝ ∗ owns (c : Thread nD τ) (st1_0 t) fullShare X)
          ∗ (∃ X, ⌜(rdat1 V c).after 1 t (Y 1) X⌝ ∗ owns (c : Thread nD τ) (st1_1 t) fullShare X)
          ∗ (∃ X, ⌜(rdat1 V c).after 2 t (Y 2) X⌝ ∗ owns (c : Thread nD τ) (st1_2 t) fullShare X)
          ∗ (∃ X, ⌜(rdat1 V c).after 3 t (Y 3) X⌝ ∗ owns (c : Thread nD τ) (st1_3 t) fullShare X))) := by
  unfold bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3⟩
  iapply (sound_kernel1 c Set.univ _ _ _ _ _ _ _ _ _ _)
  isplitl [H0]; · iexists _; iexact H0
  isplitl [H1]; · iexists _; iexact H1
  isplitl [H2]; · iexists _; iexact H2
  isplitl [H3]; · iexists _; iexact H3
  iintro ⟨⟨%X0, H0⟩, ⟨%X1, H1⟩, ⟨%X2, H2⟩, ⟨%X3, H3⟩⟩
  isplitl [HΦ]; · iexact HΦ
  isplitl [Ho]; · iexact Ho
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  iexists X3; isplitr; · ipureintro; trivial
  iexact H3

/-- The library's relational body obligation, at every point. -/
theorem body_obligation1 (c : Dev nD) : (rdat1 (F := F) V c).BodyObligation (defs₀ (F := F)) Variants.none () Set.univ := fun t Y _ => by
  rw [bigSep_W1, bigSep_W1]
  exact sound_body1 V c t Y

end Region1

end Cert.Kernel.HandFrame

end
-- ==== Proof.FrameK.lean ====
/- The frame of the whole program, at any float reading: every weakly fair execution of @main terminates without
   a fault and leaves the ten argument arrays as launched.
   @main is five items: a host stretch, region 0, a host stretch, region 1, a host stretch. Region 0's proof data
   is exact, so the contents of every unscoped buffer are named up to region 1's entry; region 1's proof data is
   relational and says nothing of what its body leaves, so after it the buffers are held at SOME contents, known
   only to agree with the launch memory on the ten arguments: no host stretch writes an argument, an argument that
   is a region's input array is left as entered, and every other argument bypasses the regions. -/
import proofs.«116744_j18193481466337_2_alg».proof.Proof.Gen.Kernel.Regions
import proofs.«116744_j18193481466337_2_alg».proof.Proof.FrameK0
import proofs.«116744_j18193481466337_2_alg».proof.Proof.FrameK1
import Idealize.ShloMosaic.Lib.Pipeline.RegionsLoop
import Idealize.ShloMosaic.Lib.Pipeline.FrameSuffix

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each item's boundary, up to region 1's entry -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second host stretch (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-! ### An argument reaches region 1's entry as launched -/

/-- An argument that is no array of region 0. -/
theorem W3_of_ne (c : Dev nD) (r : Ref sig .tc) (h0 : r ∉ hostOps0_W) (h1 : r ∉ hostOps1_W) (hne : ∀ w, Pipeline.arrRef spec0 w ≠ r) :
    W3 m c (Proc.devRef .tc r) = m ((c : Thread nD τ).loc r) :=
  (StableHlo.after_of_writes_sub hostOps1 _ hostOps1_writes h1).trans <|
    (W2_of_ne m c r hne).trans <| (StableHlo.after_of_writes_sub hostOps0 _ hostOps0_writes h0).trans rfl

/-- An argument that is the array of input window `w` of region 0: the region leaves it as entered. -/
theorem W3_of_in (c : Dev nD) (w : Fin cfg0.W) (hin : (cfg0.win w).isOut = false) (h0 : Pipeline.arrRef spec0 w ∉ hostOps0_W) (h1 : Pipeline.arrRef spec0 w ∉ hostOps1_W) :
    W3 m c (Proc.devRef .tc (Pipeline.arrRef spec0 w)) = m ((c : Thread nD τ).loc (Pipeline.arrRef spec0 w)) :=
  (StableHlo.after_of_writes_sub hostOps1 _ hostOps1_writes h1).trans <|
    (W2_arr m c w).trans <| ((dat0 (E1 m) c).arrAt_in w hin _).trans <| (A_eq0 (E1 m) c w).trans <|
      (StableHlo.after_of_writes_sub hostOps0 _ hostOps0_writes h0).trans rfl

theorem W3_main_arg0 (c : Dev nD) : W3 m c (Proc.devRef .tc main_arg0) = m ((c : Thread nD τ).loc main_arg0) :=
  W3_of_ne m c main_arg0 (by decide) (by decide) (by decide)
theorem W3_main_arg1 (c : Dev nD) : W3 m c (Proc.devRef .tc main_arg1) = m ((c : Thread nD τ).loc main_arg1) :=
  W3_of_ne m c main_arg1 (by decide) (by decide) (by decide)
theorem W3_main_arg2 (c : Dev nD) : W3 m c (Proc.devRef .tc main_arg2) = m ((c : Thread nD τ).loc main_arg2) :=
  W3_of_ne m c main_arg2 (by decide) (by decide) (by decide)
theorem W3_main_arg3 (c : Dev nD) : W3 m c (Proc.devRef .tc main_arg3) = m ((c : Thread nD τ).loc main_arg3) :=
  W3_of_ne m c main_arg3 (by decide) (by decide) (by decide)
theorem W3_main_arg6 (c : Dev nD) : W3 m c (Proc.devRef .tc main_arg6) = m ((c : Thread nD τ).loc main_arg6) :=
  W3_of_ne m c main_arg6 (by decide) (by decide) (by decide)
theorem W3_main_arg7 (c : Dev nD) : W3 m c (Proc.devRef .tc main_arg7) = m ((c : Thread nD τ).loc main_arg7) :=
  W3_of_ne m c main_arg7 (by decide) (by decide) (by decide)
theorem W3_main_arg8 (c : Dev nD) : W3 m c (Proc.devRef .tc main_arg8) = m ((c : Thread nD τ).loc main_arg8) :=
  W3_of_ne m c main_arg8 (by decide) (by decide) (by decide)
theorem W3_main_arg9 (c : Dev nD) : W3 m c (Proc.devRef .tc main_arg9) = m ((c : Thread nD τ).loc main_arg9) :=
  W3_of_ne m c main_arg9 (by decide) (by decide) (by decide)
theorem W3_main_arg4 (c : Dev nD) : W3 m c (Proc.devRef .tc main_arg4) = m ((c : Thread nD τ).loc main_arg4) :=
  W3_of_in m c 2 rfl (by decide) (by decide)
theorem W3_main_arg5 (c : Dev nD) : W3 m c (Proc.devRef .tc main_arg5) = m ((c : Thread nD τ).loc main_arg5) :=
  W3_of_in m c 3 rfl (by decide) (by decide)

/-- A valuation that has every argument as launched. -/
def ArgsAt (c : Dev nD) (V' : Valuation τ sig (Elt F)) : Prop :=
  V' (Proc.devRef .tc main_arg0) = m ((c : Thread nD τ).loc main_arg0)
  ∧ V' (Proc.devRef .tc main_arg1) = m ((c : Thread nD τ).loc main_arg1)
  ∧ V' (Proc.devRef .tc main_arg2) = m ((c : Thread nD τ).loc main_arg2)
  ∧ V' (Proc.devRef .tc main_arg3) = m ((c : Thread nD τ).loc main_arg3)
  ∧ V' (Proc.devRef .tc main_arg4) = m ((c : Thread nD τ).loc main_arg4)
  ∧ V' (Proc.devRef .tc main_arg5) = m ((c : Thread nD τ).loc main_arg5)
  ∧ V' (Proc.devRef .tc main_arg6) = m ((c : Thread nD τ).loc main_arg6)
  ∧ V' (Proc.devRef .tc main_arg7) = m ((c : Thread nD τ).loc main_arg7)
  ∧ V' (Proc.devRef .tc main_arg8) = m ((c : Thread nD τ).loc main_arg8)
  ∧ V' (Proc.devRef .tc main_arg9) = m ((c : Thread nD τ).loc main_arg9)

theorem argsAt_W3 (c : Dev nD) : ArgsAt m c (W3 m c) :=
  ⟨W3_main_arg0 m c, W3_main_arg1 m c, W3_main_arg2 m c, W3_main_arg3 m c, W3_main_arg4 m c, W3_main_arg5 m c, W3_main_arg6 m c, W3_main_arg7 m c, W3_main_arg8 m c, W3_main_arg9 m c⟩

/-! ## The proof data family and the thread states -/

/-- Every pipeline's proof data: region 0's exact data read relationally, at its entry contents; region 1's relational
    data, at its entry contents. -/
def rdats : (p : Fin 2) → (c : Dev nD) → RDat τ (Elt F) Unit ℕ (UR sig nD τ) ℕ (Pipeline.pin (pcfgs (F := F)) adm p) c
  | ⟨0, _⟩ => fun c => (dat0 (E1 m) c).toR
  | ⟨1, _⟩ => fun c => rdat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment from named contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state from region 1's exit on: every unscoped buffer at SOME contents that have the arguments as
    launched, beside `R`. -/
def Tx (c : Dev nD) : sProp 𝕄 :=
  iprop(∃ V' : Valuation τ sig (Elt F), ⌜ArgsAt m c V'⌝ ∗ StableHlo.held (c : Thread nD τ) (Pipeline.ucRefs τ sig) V' ∗ R c)
/-- The last thread state without the `owes`. -/
def Tn (c : Dev nD) : sProp 𝕄 :=
  iprop(∃ V' : Valuation τ sig (Elt F), ⌜ArgsAt m c V'⌝ ∗ StableHlo.held (c : Thread nD τ) (Pipeline.ucRefs τ sig) V' ∗ ∃ r, prngReg c r)

/-! ## A region's arrays back among the core's unscoped buffers, of relational data -/

set_option backward.isDefEq.respectTransparency.types false in
/-- Pipeline `p`'s arrays at contents `A'` and the unscoped rest at `V` are the core's unscoped buffers at any
    valuation that has the arrays at `A'` and agrees with `V` off them. -/
theorem bufs_of_arrays {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c : Thread nD τ).loc b))
    (A' : (w : Fin (Pipeline.pin (pcfgs (F := F)) adm p).W) → Buf (Elt F) (((Pipeline.pin (pcfgs (F := F)) adm p).spec w).arr.view.loc (c : Thread nD τ)))
    (hF : ∀ w, A' w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A' ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

set_option backward.isDefEq.respectTransparency.types false in
/-- REGION 0 over the thread state: entered from every unscoped buffer at `W1`, left at `W2`. Its arrays split out of
    the unscoped buffers and put back at the exit contents; the generator register into the invariant and out; nothing
    owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    refine (sep_mono (Entails.of_eq ((dat0 (E1 m) c).toR_arraysAt_eq cfg0.N)) .rfl).trans ?_
    have hjoin : iprop((dat0 (E1 m) c).arrays ((dat0 (E1 m) c).arrAt · cfg0.N)
          ∗ Pipeline.unscopedRest (Ix := Unit) (Name := ℕ) (U := UR sig nD τ) (Lvl := ℕ) spec0 c (E1 m c))
        ⊢ (unscopedBufs c (E2 m c) : sProp 𝕄) :=
      bufs_of_arrays (p := 0) launch0.win launch0.arr_whole c (rdats m) ((rdats m 0 c).share_full fun _ => rfl)
        (E1 m c) (E2 m c) ((dat0 (E1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- What region 1 leaves in its arrays: an argument that is one of them (the array of input window 1) is left as
    entered, and every other argument bypasses the region. -/
theorem argsAt_exit1 (c : Dev nD) (Fs : (w : Fin cfg1.W) → Buf (Elt F) ((cfg1.win w).arr.view.loc (c : Thread nD τ)))
    (hFs : ∀ w, (rdat1 (E3 m) c).ArrAt w cfg1.N (Fs w)) :
    ArgsAt m c (Pipeline.withArrays spec1 c (W3 m c) Fs) := by
  have h8 : Pipeline.withArrays spec1 c (W3 m c) Fs (Proc.devRef .tc main_arg8) = m ((c : Thread nD τ).loc main_arg8) := by
    refine (Pipeline.withArrays_arr spec1 launch1.win.arr_inj c (W3 m c) Fs 1).trans ?_
    have h := hFs 1
    rw [(rdat1 (E3 m) c).ArrAt_in 1 rfl cfg1.N] at h
    exact h.trans ((A_eq1 (E3 m) c 1).trans (W3_main_arg8 m c))
  exact ⟨(Pipeline.withArrays_of_ne spec1 c (W3 m c) Fs main_arg0 (by decide)).trans (W3_main_arg0 m c),
    (Pipeline.withArrays_of_ne spec1 c (W3 m c) Fs main_arg1 (by decide)).trans (W3_main_arg1 m c),
    (Pipeline.withArrays_of_ne spec1 c (W3 m c) Fs main_arg2 (by decide)).trans (W3_main_arg2 m c),
    (Pipeline.withArrays_of_ne spec1 c (W3 m c) Fs main_arg3 (by decide)).trans (W3_main_arg3 m c),
    (Pipeline.withArrays_of_ne spec1 c (W3 m c) Fs main_arg4 (by decide)).trans (W3_main_arg4 m c),
    (Pipeline.withArrays_of_ne spec1 c (W3 m c) Fs main_arg5 (by decide)).trans (W3_main_arg5 m c),
    (Pipeline.withArrays_of_ne spec1 c (W3 m c) Fs main_arg6 (by decide)).trans (W3_main_arg6 m c),
    (Pipeline.withArrays_of_ne spec1 c (W3 m c) Fs main_arg7 (by decide)).trans (W3_main_arg7 m c),
    h8,
    (Pipeline.withArrays_of_ne spec1 c (W3 m c) Fs main_arg9 (by decide)).trans (W3_main_arg9 m c)⟩

set_option backward.isDefEq.respectTransparency.types false in
/-- REGION 1 over the thread state: entered from every unscoped buffer at `W3`, left at SOME contents that have the
    arguments as launched. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E3 m) c
  hwaits := Pipeline.RDat.hwaits_of_owed_zero _ _ _ _ L lv 1 fun _ _ => rfl
  pre c := iprop(StableHlo.held (c : Thread nD τ) (Pipeline.ucRefs τ sig) (W3 m c) ∗ R c)
  post c := Tx m c
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    classical
    show iprop((rdat1 (E3 m) c).arraysAt cfg1.N ∗ (rdat1 (E3 m) c).owesAt () (Fin.last cfg1.N) ∗ (∃ r, prngReg c r)
      ∗ Pipeline.unscopedRest (Ix := Unit) (Name := ℕ) (U := UR sig nD τ) (Lvl := ℕ) spec1 c (E3 m c)) ⊢ |={Set.univ}=> Tx m c
    unfold Pipeline.RDat.arraysAt Tx
    iintro ⟨Ha, HO, HY, Hrest⟩
    ihave Ha' := (BI.bigSep_exists_pi Finset.univ (fun (w : Fin cfg1.W) Fw => iprop(⌜(rdat1 (E3 m) c).ArrAt w cfg1.N Fw⌝
        ∗ (cfg1.win w).arr.view.loc (c : Thread nD τ) ↦[(cfg1.win w).arr.view.set]{(rdat1 (E3 m) c).share w} Fw))) $$ Ha
    icases Ha' with ⟨%Fs, Ha⟩
    ihave Ha2 := (BI.bigSep_pure_sep Finset.univ (fun (w : Fin cfg1.W) => (rdat1 (E3 m) c).ArrAt w cfg1.N (Fs w))
        (fun w => (cfg1.win w).arr.view.loc (c : Thread nD τ) ↦[(cfg1.win w).arr.view.set]{(rdat1 (E3 m) c).share w} Fs w)) $$ Ha
    icases Ha2 with ⟨%hFs, Ha⟩
    have hjoin : iprop((rdat1 (E3 m) c).arrays Fs
          ∗ Pipeline.unscopedRest (Ix := Unit) (Name := ℕ) (U := UR sig nD τ) (Lvl := ℕ) spec1 c (E3 m c))
        ⊢ (unscopedBufs c (fun b => Pipeline.withArrays spec1 c (W3 m c) Fs (Proc.devRef .tc b)) : sProp 𝕄) :=
      bufs_of_arrays (p := 1) launch1.win launch1.arr_whole c (rdats m) ((rdats m 1 c).share_full fun _ => rfl)
        (E3 m c) (fun b => Pipeline.withArrays spec1 c (W3 m c) Fs (Proc.devRef .tc b)) Fs
        (fun w => (Pipeline.withArrays_arr spec1 launch1.win.arr_inj c (W3 m c) Fs w).symm)
        (fun b hb => Pipeline.withArrays_of_ne spec1 c (W3 m c) Fs b fun w e => hb (Finset.mem_image.mpr ⟨w, Finset.mem_univ _, e⟩))
    rw [Pipeline.unscopedBufs_held] at hjoin
    unfold Pipeline.RDat.arrays at hjoin
    imodintro
    iexists (Pipeline.withArrays spec1 c (W3 m c) Fs)
    isplitr
    · ipureintro; exact argsAt_exit1 m c Fs fun w => hFs w (Finset.mem_univ w)
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The last host stretch, from contents not named -/

/-- The last host stretch writes no argument. -/
theorem argsAt_after2 (c : Dev nD) (V' : Valuation τ sig (Elt F)) (h : ArgsAt m c V') : ArgsAt m c (StableHlo.after hostOps2 V') := by
  obtain ⟨h0, h1, h2, h3, h4, h5, h6, h7, h8, h9⟩ := h
  exact ⟨(StableHlo.after_of_writes_sub hostOps2 V' hostOps2_writes (r := main_arg0) (by decide)).trans h0,
    (StableHlo.after_of_writes_sub hostOps2 V' hostOps2_writes (r := main_arg1) (by decide)).trans h1,
    (StableHlo.after_of_writes_sub hostOps2 V' hostOps2_writes (r := main_arg2) (by decide)).trans h2,
    (StableHlo.after_of_writes_sub hostOps2 V' hostOps2_writes (r := main_arg3) (by decide)).trans h3,
    (StableHlo.after_of_writes_sub hostOps2 V' hostOps2_writes (r := main_arg4) (by decide)).trans h4,
    (StableHlo.after_of_writes_sub hostOps2 V' hostOps2_writes (r := main_arg5) (by decide)).trans h5,
    (StableHlo.after_of_writes_sub hostOps2 V' hostOps2_writes (r := main_arg6) (by decide)).trans h6,
    (StableHlo.after_of_writes_sub hostOps2 V' hostOps2_writes (r := main_arg7) (by decide)).trans h7,
    (StableHlo.after_of_writes_sub hostOps2 V' hostOps2_writes (r := main_arg8) (by decide)).trans h8,
    (StableHlo.after_of_writes_sub hostOps2 V' hostOps2_writes (r := main_arg9) (by decide)).trans h9⟩

set_option backward.isDefEq.respectTransparency.types false in
/-- The last host stretch as a segment from the existential thread state: whatever the contents, the stretch runs
    from them (`hseg`), to contents that still have the arguments as launched. -/
def hs4 : Pipeline.HostSeg (Name := ℕ) (U := UR sig nD τ) (pcfgs (F := F)) defs₀ 𝒱₀ L lv where
  prog := StableHlo.seq hostOps2
  pre c := Tx m c
  post c := Tx m c
  run c {β} k K := by
    unfold Tx
    iintro ⟨Hk, Hbd, ⟨%V', %hV', HT⟩, Hla⟩
    iapply ((hseg hostOps2 hostOps2_sub hostOps2_fresh (fun _ => V')).run c k K)
    isplitl [Hk]
    · iintro ⟨Hbd, Hpost⟩
      iapply Hk
      isplitl [Hbd]; · iexact Hbd
      iexists (StableHlo.after hostOps2 V')
      isplitr; · ipureintro; exact argsAt_after2 m c V' hV'
      iapply (show ((hseg hostOps2 hostOps2_sub hostOps2_fresh (fun _ => V')).post c : sProp 𝕄)
        ⊢ iprop(StableHlo.held (c : Thread nD τ) (Pipeline.ucRefs τ sig) (StableHlo.after hostOps2 V') ∗ R c) from .rfl)
      iexact Hpost
    isplitl [Hbd]; · iexact Hbd
    isplitl [HT]
    · iapply (show (iprop(StableHlo.held (c : Thread nD τ) (Pipeline.ucRefs τ sig) V' ∗ R c) : sProp 𝕄)
        ⊢ (hseg hostOps2 hostOps2_sub hostOps2_fresh (fun _ => V')).pre c from .rfl)
      iexact HT
    iexact Hla

/-! ## @main as segments, and the launch -/

/-- @main's five items in order. -/
abbrev segsK : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hs4 m) ]

/-- Every argument read off a final state that holds the unscoped buffers at contents having the arguments as launched. -/
theorem read_args (c : Dev nD) (V' : Valuation τ sig (Elt F)) (hV' : ArgsAt m c V') (s' : Phys nD τ sig (Elt F)) :
    iprop(StableHlo.held (c : Thread nD τ) (Pipeline.ucRefs τ sig) V' ∗ SI s')
      ⊢ (|={Set.univ}=> iprop(⌜s'.mem.mem ((c.tc : Thread nD τ).loc main_arg0) = m ((c.tc : Thread nD τ).loc main_arg0)
      ∧ s'.mem.mem ((c.tc : Thread nD τ).loc main_arg1) = m ((c.tc : Thread nD τ).loc main_arg1)
      ∧ s'.mem.mem ((c.tc : Thread nD τ).loc main_arg2) = m ((c.tc : Thread nD τ).loc main_arg2)
      ∧ s'.mem.mem ((c.tc : Thread nD τ).loc main_arg3) = m ((c.tc : Thread nD τ).loc main_arg3)
      ∧ s'.mem.mem ((c.tc : Thread nD τ).loc main_arg4) = m ((c.tc : Thread nD τ).loc main_arg4)
      ∧ s'.mem.mem ((c.tc : Thread nD τ).loc main_arg5) = m ((c.tc : Thread nD τ).loc main_arg5)
      ∧ s'.mem.mem ((c.tc : Thread nD τ).loc main_arg6) = m ((c.tc : Thread nD τ).loc main_arg6)
      ∧ s'.mem.mem ((c.tc : Thread nD τ).loc main_arg7) = m ((c.tc : Thread nD τ).loc main_arg7)
      ∧ s'.mem.mem ((c.tc : Thread nD τ).loc main_arg8) = m ((c.tc : Thread nD τ).loc main_arg8)
      ∧ s'.mem.mem ((c.tc : Thread nD τ).loc main_arg9) = m ((c.tc : Thread nD τ).loc main_arg9)⌝ ∗ SI s') : sProp 𝕄) := by
  obtain ⟨h0, h1, h2, h3, h4, h5, h6, h7, h8, h9⟩ := hV'
  unfold StableHlo.held
  iintro ⟨Hh, HSI⟩
  ihave Hr := (pointsTo_read_all (Pipeline.ucRefs τ sig) (fun b => ((c : Thread nD τ).1, b)) V' s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans h0,
      (h (Proc.devRef .tc main_arg1) (Finset.mem_filter.mpr ⟨StableHlo.devRef_mem_tcRefs main_arg1, by decide⟩)).trans h1,
      (h (Proc.devRef .tc main_arg2) (Finset.mem_filter.mpr ⟨StableHlo.devRef_mem_tcRefs main_arg2, by decide⟩)).trans h2,
      (h (Proc.devRef .tc main_arg3) (Finset.mem_filter.mpr ⟨StableHlo.devRef_mem_tcRefs main_arg3, by decide⟩)).trans h3,
      (h (Proc.devRef .tc main_arg4) (Finset.mem_filter.mpr ⟨StableHlo.devRef_mem_tcRefs main_arg4, by decide⟩)).trans h4,
      (h (Proc.devRef .tc main_arg5) (Finset.mem_filter.mpr ⟨StableHlo.devRef_mem_tcRefs main_arg5, by decide⟩)).trans h5,
      (h (Proc.devRef .tc main_arg6) (Finset.mem_filter.mpr ⟨StableHlo.devRef_mem_tcRefs main_arg6, by decide⟩)).trans h6,
      (h (Proc.devRef .tc main_arg7) (Finset.mem_filter.mpr ⟨StableHlo.devRef_mem_tcRefs main_arg7, by decide⟩)).trans h7,
      (h (Proc.devRef .tc main_arg8) (Finset.mem_filter.mpr ⟨StableHlo.devRef_mem_tcRefs main_arg8, by decide⟩)).trans h8,
      (h (Proc.devRef .tc main_arg9) (Finset.mem_filter.mpr ⟨StableHlo.devRef_mem_tcRefs main_arg9, by decide⟩)).trans h9⟩
  · iexact HSI

set_option backward.isDefEq.respectTransparency.types false in
/-- THE FRAME, at any float reading: from any memory with zero counters, every weakly fair execution of @main on the
    TensorCores terminates, nothing faulting, and every final state has the ten argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit (pcfgs (F := F)) adm (rdats m) () cellOf_inj emb₁ defs₀ 𝒱₀ L lv m ρ main (segsK m)
    (fun c Q => by
      rewrite [main_chain c, Pipeline.RDat.Seg.run_eq_chain,
        show (segsK m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segsK, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun c => by
      show Tx m c ⊢ iprop(Tn m c ∗ ∃ W, owes (c : Thread nD τ) (0 : CellTallies nD τ sig Unit) W)
      unfold Tx Tn
      iintro ⟨%V', %hV', Hh, Hp, HO⟩
      isplitl [Hh Hp]
      · iexists V'; isplitr; · ipureintro; exact hV'
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => by
      unfold Tn
      iintro ⟨⟨%V', %hV', Hh, -⟩, HSI⟩
      iapply (read_args m c V' hV' s')
      isplitl [Hh] <;> iassumption)
    (hQ := fun _ h => h)

/-- info: 'Cert.Kernel.HandFrame.frame' depends on axioms: [propext, Classical.choice, Quot.sound] -/
#guard_msgs in #print axioms frame

end Cert.Kernel.HandFrame

end
-- ==== Proof.FrameKI0.lean ====
/- The frame of region 0 (the gates kernel) by exact proof data, at any float reading.
   The body reads six input blocks whole, and stores into the output block one value computed from
   them; so what it leaves in the output staging buffer is a closed function of the six input blocks
   at the point, and every input buffer holds its block at every point, fetched there or not. -/
import proofs.«116744_j18193481466337_2_alg».proof.Proof.Gen.KernelIdeal.Launch
import proofs.«116744_j18193481466337_2_alg».proof.Proof.Gen.KernelIdeal.Skeleton
import proofs.«116744_j18193481466337_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any
    exact proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any
    exact proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any
    exact proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any
    exact proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any
    exact proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any
    exact proof data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rA : Rect S1x2048 := Rect.unit (s := S1x2048) ![0, 0] S1x2048.size inb_S1x2048_S1x2048_0_0
abbrev rB : Rect S512x2048 := Rect.unit (s := S512x2048) ![0, 0] S512x2048.size inb_S512x2048_S512x2048_0_0
abbrev rC : Rect S1x512 := Rect.unit (s := S1x512) ![0, 0] S1x512.size inb_S1x512_S1x512_0_0

/-- What the body leaves in the output window's buffer, from the six input blocks: its one store. -/
def out0_6 (x0 : Vec F S1x2048 .f32) (x1 : Vec F S1x2048 .f32) (x2 : Vec F S512x2048 .f32) (x3 : Vec F S512x2048 .f32) (x4 : Vec F S1x512 .f32) (x5 : Vec F S1x512 .f32) : Vec F S1x512 .f32 :=
  View.canon [⟨rC, k0_pay1 (View.ld x0 rA) (View.ld x1 rA) (View.ld x2 rB) (View.ld x3 rB) (View.ld x4 rC) (View.ld x5 rC)⟩]

/-- The store covers the buffer. -/
theorem cover0_6 (p0 : Vec F S1x512 .f32) (y : S1x512.Idx) :
    ∃ pc ∈ ([⟨rC, p0⟩] : List (View.Piece (Elt F) S1x512 .f32)), y ∈ pc.1.set :=
  View.cover_of_tiled [⟨rC, p0⟩] S1x512.size (by rfl) y

/-! ## The body's triple -/

set_option maxHeartbeats 1000000 in
/-- The body on whole staging memrefs, the inputs' at read contents `xW` and the output's at anything, runs to the
    continuation holding the inputs' as they were and the output's at `out0_6` of the inputs'. -/
theorem sound_kernel0 (c : Dev nD) (E : Set ℕ) (i : grid0.Coords) (arg0 : Memref sig .tc .vmem S1x2048 .f32) (harg0 : arg0.IsWhole) (arg1 : Memref sig .tc .vmem S1x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole)
    (x0 : Vec F S1x2048 .f32) (x1 : Vec F S1x2048 .f32) (x2 : Vec F S512x2048 .f32) (x3 : Vec F S512x2048 .f32) (x4 : Vec F S1x512 .f32) (x5 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gates_kernel i arg0 harg0 arg1 harg1 arg2 harg2 arg3 harg3 arg4 harg4 arg5 harg5 arg6 harg6) K := by
  simp only [cc0__gates_kernel_eq_skeleton]; unfold cc0__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The exact proof data of pipeline 0 on core `c`: the arrays as the region finds them; after the body at point
    `t` each input's buffer at its block and the output's at `out0_6` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.HandFrame

end
-- ==== Proof.Reg1Body.lean ====
/-
  Region 1 (the output projection) of the idealized kernel: the body's triple.
  The body loads its three input windows' staging buffers whole — the hidden row h' [1, 2048], a block of W_out
  [1536, 2048], a block of b_out [1, 1536] —, computes h' · blockᵀ + bias, and stores the row [1, 1536] whole into
  the output window's staging buffer. So on whole staging memrefs holding x0, x1, x2 it leaves them as they were
  and the output's buffer at the payload of (x0, x1, x2), whatever that buffer held.
-/
import proofs.«116744_j18193481466337_2_alg».proof.Proof.Gen.KernelIdeal.Launch
import proofs.«116744_j18193481466337_2_alg».proof.Proof.Gen.KernelIdeal.Skeleton
import proofs.«116744_j18193481466337_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole output row's rectangle: offset zero, the buffer's own sizes. -/
abbrev rOut1 : Rect S1x1536 := Rect.unit (s := S1x1536) ![0, 0] S1x1536.size inb_S1x1536_S1x1536_0_0
abbrev rH1 : Rect S1x2048 := Rect.unit (s := S1x2048) ![0, 0] S1x2048.size inb_S1x2048_S1x2048_0_0
abbrev rW1 : Rect S1536x2048 := Rect.unit (s := S1536x2048) ![0, 0] S1536x2048.size inb_S1536x2048_S1536x2048_0_0

/-- What the body leaves in the output window's buffer: its one store, of the payload of the three whole loads. -/
def out1_3 (x0 : Vec F S1x2048 .f32) (x1 : Vec F S1536x2048 .f32) (x2 : Vec F S1x1536 .f32) : Vec F S1x1536 .f32 :=
  View.canon [⟨rOut1, k1_pay1 (View.ld x0 rH1) (View.ld x1 rW1) (View.ld x2 rOut1)⟩]

/-- The one store covers the buffer. -/
theorem cover1_3 (p0 : Vec F S1x1536 .f32) (y : S1x1536.Idx) :
    ∃ pc ∈ ([⟨rOut1, p0⟩] : List (View.Piece (Elt F) S1x1536 .f32)), y ∈ pc.1.set :=
  View.cover_of_tiled [⟨rOut1, p0⟩] S1x1536.size (by rfl) y

set_option maxHeartbeats 1000000 in
/-- The body on whole staging memrefs: the inputs' at contents x0, x1, x2 and the output's at anything; it runs to
    the continuation holding the inputs' as they were and the output's at `out1_3 x0 x1 x2`. -/
theorem sound_kernel1 (c : Dev nD) (E : Set ℕ) (i : grid1.Coords)
    (arg1 : Memref sig .tc .vmem S1x2048 .f32) (harg1 : arg1.IsWhole) (arg2 : Memref sig .tc .vmem S1536x2048 .f32) (harg2 : arg2.IsWhole)
    (arg3 : Memref sig .tc .vmem S1x1536 .f32) (harg3 : arg3.IsWhole) (arg4 : Memref sig .tc .vmem S1x1536 .f32) (harg4 : arg4.IsWhole)
    (x0 : Vec F S1x2048 .f32) (x1 : Vec F S1536x2048 .f32) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The loads and the store go through the buffers' whole rectangles at offset zero: the store leaves the payload of
    the buffers' contents. -/
theorem out1_3_eq (x0 : Vec F S1x2048 .f32) (x1 : Vec F S1536x2048 .f32) (x2 : Vec F S1x1536 .f32) :
    out1_3 x0 x1 x2 = k1_pay1 x0 x1 x2 := by
  have hz : (![0, 0] : Fin 2 → Nat) = fun _ => 0 := funext fun a => by fin_cases a <;> rfl
  unfold out1_3
  rw [View.canon_unit_zero hz, View.ld_unit_zero (S := S1x2048) hz, View.ld_unit_zero (S := S1536x2048) hz,
    View.ld_unit_zero (S := S1x1536) hz]

end Cert.KernelIdeal.Hand

end
-- ==== Proof.Pay.lean ====
/-
  The two bodies' payloads read at an index, over the extended reals.
  A body of the first region computes, for one block of 512 rows of the two weight matrices,
    out q = ((Σₖ x k * W₁ q k + Σₖ h k * W₂ q k) + b₁ q) + b₂ q        (q < 512),
  and a body of the second region, for one block of 1536 rows of the output weights,
    out q = Σₖ h k * W q k + b q                                         (q < 1536).
  Both matrix products contract axis 1 of both operands (a row of the vector against a row of the
  weight block), the change of format on the way into the matrix unit is the identity on the
  extended reals, and the accumulator is the zero vector. Column q of a result therefore depends on
  row q of the weight block alone.
-/
import proofs.«116744_j18193481466337_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

theorem rhs512_0 (j : S1x512.Idx) (k : dot_S1x2048_S512x2048_S1x512_1_1_0_0_n_n.contr.Idx) :
    (dot_S1x2048_S512x2048_S1x512_1_1_0_0_n_n.rhsIdx j k 0).val = (j 1).val := by
  unfold DotDims.rhsIdx
  rw [dif_neg (show ¬(0 : Fin S512x2048.rank) ∈ dot_S1x2048_S512x2048_S1x512_1_1_0_0_n_n.rhsBatch by decide),
    dif_pos (show (0 : Fin S512x2048.rank) ∈ dot_S1x2048_S512x2048_S1x512_1_1_0_0_n_n.rhsNonContracting by decide)]
  rfl

/-- A row vector times the transpose of a block of 512 rows, into a zero accumulator: entry q is the
    sum over k of a k * W q k. -/
theorem matmul512_apply (a : FVec Ideal S1x2048 .bf16) (W : FVec Ideal S512x2048 .bf16) (q : Fin 512) :
    matmul dot_S1x2048_S512x2048_S1x512_1_1_0_0_n_n none a W (constant (F := Ideal) S1x512 .f32 0x00000000#32) (ix2 (0 : Fin 1) q)
      = ∑ k : Fin 2048, a (ix2 (0 : Fin 1) k) * W (ix2 q k) := by
  refine (Ideal.matmul_constant_zero_apply dot_S1x2048_S512x2048_S1x512_1_1_0_0_n_n none a W (ix2 (0 : Fin 1) q)).trans ?_
  rw [← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx (ix2 (0 : Fin 1) q)
      ((contrEquiv1 dot_S1x2048_S512x2048_S1x512_1_1_0_0_n_n 2048 rfl rfl).symm k) = ix2 (0 : Fin 1) k :=
    funext fun d => Fin.ext (by
      match d with
      | ⟨0, _⟩ => exact Nat.lt_one_iff.mp (Fin.isLt _)
      | ⟨1, _⟩ => exact (dot_S1x2048_S512x2048_S1x512_1_1_0_0_n_n.lhsIdx_val_of_single rfl _ _).trans hk)
  have er : dot_S1x2048_S512x2048_S1x512_1_1_0_0_n_n.rhsIdx (ix2 (0 : Fin 1) q)
      ((contrEquiv1 dot_S1x2048_S512x2048_S1x512_1_1_0_0_n_n 2048 rfl rfl).symm k) = ix2 q k :=
    funext fun d => Fin.ext (by
      match d with
      | ⟨0, _⟩ => exact rhs512_0 _ _
      | ⟨1, _⟩ => exact (dot_S1x2048_S512x2048_S1x512_1_1_0_0_n_n.rhsIdx_val_of_single rfl _ _).trans hk)
  rw [el, er]

theorem rhs1536_0 (j : S1x1536.Idx) (k : dot_S1x2048_S1536x2048_S1x1536_1_1_0_0_n_n.contr.Idx) :
    (dot_S1x2048_S1536x2048_S1x1536_1_1_0_0_n_n.rhsIdx j k 0).val = (j 1).val := by
  unfold DotDims.rhsIdx
  rw [dif_neg (show ¬(0 : Fin S1536x2048.rank) ∈ dot_S1x2048_S1536x2048_S1x1536_1_1_0_0_n_n.rhsBatch by decide),
    dif_pos (show (0 : Fin S1536x2048.rank) ∈ dot_S1x2048_S1536x2048_S1x1536_1_1_0_0_n_n.rhsNonContracting by decide)]
  rfl

/-- A row vector times the transpose of a block of 1536 rows, into a zero accumulator: entry q is the
    sum over k of a k * W q k. -/
theorem matmul1536_apply (a : FVec Ideal S1x2048 .bf16) (W : FVec Ideal S1536x2048 .bf16) (q : Fin 1536) :
    matmul dot_S1x2048_S1536x2048_S1x1536_1_1_0_0_n_n none a W (constant (F := Ideal) S1x1536 .f32 0x00000000#32) (ix2 (0 : Fin 1) q)
      = ∑ k : Fin 2048, a (ix2 (0 : Fin 1) k) * W (ix2 q k) := by
  refine (Ideal.matmul_constant_zero_apply dot_S1x2048_S1536x2048_S1x1536_1_1_0_0_n_n none a W (ix2 (0 : Fin 1) q)).trans ?_
  rw [← Equiv.sum_comp (contrEquiv1 dot_S1x2048_S1536x2048_S1x1536_1_1_0_0_n_n 2048 rfl rfl).symm]
  refine Finset.sum_congr rfl fun k _ => ?_
  have hk := contrEquiv1_symm_val dot_S1x2048_S1536x2048_S1x1536_1_1_0_0_n_n 2048 rfl rfl k
  have el : dot_S1x2048_S1536x2048_S1x1536_1_1_0_0_n_n.lhsIdx (ix2 (0 : Fin 1) q)
      ((contrEquiv1 dot_S1x2048_S1536x2048_S1x1536_1_1_0_0_n_n 2048 rfl rfl).symm k) = ix2 (0 : Fin 1) k :=
    funext fun d => Fin.ext (by
      match d with
      | ⟨0, _⟩ => exact Nat.lt_one_iff.mp (Fin.isLt _)
      | ⟨1, _⟩ => exact (dot_S1x2048_S1536x2048_S1x1536_1_1_0_0_n_n.lhsIdx_val_of_single rfl _ _).trans hk)
  have er : dot_S1x2048_S1536x2048_S1x1536_1_1_0_0_n_n.rhsIdx (ix2 (0 : Fin 1) q)
      ((contrEquiv1 dot_S1x2048_S1536x2048_S1x1536_1_1_0_0_n_n 2048 rfl rfl).symm k) = ix2 q k :=
    funext fun d => Fin.ext (by
      match d with
      | ⟨0, _⟩ => exact rhs1536_0 _ _
      | ⟨1, _⟩ => exact (dot_S1x2048_S1536x2048_S1x1536_1_1_0_0_n_n.rhsIdx_val_of_single rfl _ _).trans hk)
  rw [el, er]

/-- A body of the first region at column q of its block. -/
theorem k0_pay1_apply (x h : Vec Ideal S1x2048 .f32) (W1 W2 : Vec Ideal S512x2048 .f32) (b1 b2 : Vec Ideal S1x512 .f32) (q : Fin 512) :
    Gen.k0_pay1 (F := Ideal) x h W1 W2 b1 b2 (ix2 (0 : Fin 1) q)
      = (((∑ k : Fin 2048, x (ix2 (0 : Fin 1) k) * W1 (ix2 q k)) + ∑ k : Fin 2048, h (ix2 (0 : Fin 1) k) * W2 (ix2 q k))
          + b1 (ix2 (0 : Fin 1) q)) + b2 (ix2 (0 : Fin 1) q) := by
  unfold Gen.k0_pay1
  simp only [shapeCast_self]
  rw [addf_apply, addf_apply, addf_apply, matmul512_apply, matmul512_apply]
  rfl

/-- A body of the second region at column q of its block. -/
theorem k1_pay1_apply (h : Vec Ideal S1x2048 .f32) (W : Vec Ideal S1536x2048 .f32) (b : Vec Ideal S1x1536 .f32) (q : Fin 1536) :
    Gen.k1_pay1 (F := Ideal) h W b (ix2 (0 : Fin 1) q)
      = (∑ k : Fin 2048, h (ix2 (0 : Fin 1) k) * W (ix2 q k)) + b (ix2 (0 : Fin 1) q) := by
  unfold Gen.k1_pay1
  simp only [shapeCast_self]
  rw [addf_apply, matmul1536_apply]
  rfl

end Cert.KernelIdeal.Pay

end
-- ==== Proof.Reg1Data.lean ====
/-
  Region 1 (the output projection) of the idealized kernel at the extended reals: the pipeline's proof data and the
  body obligation, at the contents `V` the region is entered with.
  The grid has 33 points; point t moves block t of W_out (rows 1536 t …), of b_out and of the result (columns
  1536 t …). 33 · 1536 = 50688 > 50257: the last block overhangs its array, so the last fetch fills only the
  buffers' leading 1105 rows (columns) and the last write-back writes only the result's leading 1105 columns. What
  the rest of a buffer holds is not named. The result's column q is Σₖ h' k · W q k + b q: it reads row q of the
  weight block and entry q of the bias block and nothing else, so the columns that are written back do not depend on
  the unnamed rows — which is what the obligation of a window cut at the array's end asks.
-/
import proofs.«116744_j18193481466337_2_alg».proof.Proof.Reg1Body
import proofs.«116744_j18193481466337_2_alg».proof.Proof.Pay
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- A block filled out to the buffer's size with zeros past the array's end (nothing reads the filler). -/
def wblk1 (c : Dev nD) (t : Fin cfg1.N) : Vec Ideal S1536x2048 .f32 :=
  win1_1.fill (grid1.coords t) (fun _ => Scalar.ofBits (F := Ideal) .f32 0#32) (iblk1 V c 1 t)
def bblk1 (c : Dev nD) (t : Fin cfg1.N) : Vec Ideal S1x1536 .f32 :=
  win1_2.fill (grid1.coords t) (fun _ => Scalar.ofBits (F := Ideal) .f32 0#32) (iblk1 V c 2 t)

/-- The proof data of pipeline 1 on core `c`: the arrays as the region finds them; after the body at point `t` the
    hidden row's buffer at its block, the weight and bias buffers at their blocks (zeros past the array's end) and
    the result's at the body's payload of those three; the scoped rest and the generator register untouched; nothing
    owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => bblk1 V c t
    | ⟨3, _⟩ => k1_pay1 (F := Ideal) (iblk1 V c 0 t) (wblk1 V c t) (bblk1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = bblk1 V c t := by dsimp only [dat1]
theorem after1_3 (c : Dev nD) (t : Fin cfg1.N) :
    (dat1 V c).after 3 t = k1_pay1 (F := Ideal) (iblk1 V c 0 t) (wblk1 V c t) (bblk1 V c t) := by dsimp only [dat1]

/-- The hidden row's buffer holds its block at every point, fetched there (the first point) or not: the block index
    never moves, the window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight and bias windows fetch at every point: their buffers hold the block where the fetch filled them and
    `d` elsewhere. -/
theorem before1_1 (c : Dev nD) (t : Fin cfg1.N) (d) :
    (dat1 V c).before 1 t d = win1_1.fill (grid1.coords t) d (iblk1 V c 1 t) := by
  unfold Dat.before; rw [if_pos (fetch1_1 t)]; unfold Dat.fetched Dat.blockOf iblk1; rw [A_eq1]; try rfl
theorem before1_2 (c : Dev nD) (t : Fin cfg1.N) (d) :
    (dat1 V c).before 2 t d = win1_2.fill (grid1.coords t) d (iblk1 V c 2 t) := by
  unfold Dat.before; rw [if_pos (fetch1_2 t)]; unfold Dat.fetched Dat.blockOf iblk1; rw [A_eq1]; try rfl

/-- The result's window is never fetched. -/
theorem fetch1_3 : ∀ t : Fin cfg1.N, (cfg1.win 3).fetch t = false :=
  (by decide +kernel : ∀ t : Fin grid1.N, win1_3.fetch t = false)

/-- The result's buffer comes to the body at contents nothing names: at the first point, and after each write-back. -/
theorem before1_3 (c : Dev nD) (t : Fin cfg1.N) (d) : (dat1 V c).before 3 t d = d := by
  unfold Dat.before
  rw [if_neg (by rw [fetch1_3 t]; exact Bool.false_ne_true)]
  by_cases h0 : t.val = 0
  · rw [if_pos h0]
  · rw [if_neg h0]; exact if_pos (flush1_3 _)

/-! ## The payload, column by column -/

/-- Column q of h' · Wᵀ + b reads row q of W and entry q of b only: two weight blocks that agree on row q and two
    bias blocks that agree at q give the same column q. -/
theorem k1_pay1_local (h : Vec Ideal S1x2048 .f32) (W W' : Vec Ideal S1536x2048 .f32) (b b' : Vec Ideal S1x1536 .f32) (q : Fin 1536)
    (hW : ∀ k : Fin 2048, W (ValueIdx.ix2 q k) = W' (ValueIdx.ix2 q k))
    (hb : b (ValueIdx.ix2 (0 : Fin 1) q) = b' (ValueIdx.ix2 (0 : Fin 1) q)) :
    k1_pay1 (F := Ideal) h W b (ValueIdx.ix2 (0 : Fin 1) q) = k1_pay1 (F := Ideal) h W' b' (ValueIdx.ix2 (0 : Fin 1) q) := by
  rw [Cert.KernelIdeal.Pay.k1_pay1_apply, Cert.KernelIdeal.Pay.k1_pay1_apply, hb]
  refine congrArg (· + b' (ValueIdx.ix2 (0 : Fin 1) q)) (Finset.sum_congr rfl fun k _ => ?_)
  rw [hW k]

/-! ## The windows are cut alike -/

/-- At every point the weight block's rows inside the array are as many as the result block's columns inside it
    (and the bias block's), and the weight block keeps all its 2048 columns, the bias and result blocks their one row. -/
theorem xsizes1 : ∀ t : Fin cfg1.N,
    win1_1.xsize (grid1.coords t) 0 = win1_3.xsize (grid1.coords t) 1 ∧ win1_1.xsize (grid1.coords t) 1 = 2048
    ∧ win1_2.xsize (grid1.coords t) 1 = win1_3.xsize (grid1.coords t) 1 ∧ win1_2.xsize (grid1.coords t) 0 = 1 :=
  (by decide +kernel : ∀ t : Fin grid1.N,
    win1_1.xsize (grid1.coords t) 0 = win1_3.xsize (grid1.coords t) 1 ∧ win1_1.xsize (grid1.coords t) 1 = 2048
    ∧ win1_2.xsize (grid1.coords t) 1 = win1_3.xsize (grid1.coords t) 1 ∧ win1_2.xsize (grid1.coords t) 0 = 1)

/-- The result's columns inside the array do not depend on what fills the weight and bias buffers past the array's
    end: column q reads row q of the weights and entry q of the bias, both inside the array when q is. -/
theorem cut_local (c : Dev nD) (t : Fin cfg1.N) (d1 : Vec Ideal S1536x2048 .f32) (d2 : Vec Ideal S1x1536 .f32) :
    win1_3.cut (grid1.coords t) (k1_pay1 (F := Ideal) (iblk1 V c 0 t)
        (win1_1.fill (grid1.coords t) d1 (iblk1 V c 1 t)) (win1_2.fill (grid1.coords t) d2 (iblk1 V c 2 t)))
      = win1_3.cut (grid1.coords t) (k1_pay1 (F := Ideal) (iblk1 V c 0 t) (wblk1 V c t) (bblk1 V c t)) := by
  funext j
  obtain ⟨hx10, hx11, hx21, hx20⟩ := xsizes1 t
  have hq : (j 1).val < win1_3.xsize (grid1.coords t) 1 := (j 1).isLt
  have hq' : (j 1).val < 1536 := Nat.lt_of_lt_of_le hq (win1_3.xsize_le _ 1)
  have e : win1_3.xinj (grid1.coords t) j = ValueIdx.ix2 (0 : Fin 1) (⟨(j 1).val, hq'⟩ : Fin 1536) := by
    funext a
    match a with
    | ⟨0, _⟩ => exact Fin.ext (Nat.lt_one_iff.mp (win1_3.xinj (grid1.coords t) j 0).isLt)
    | ⟨1, _⟩ => rfl
  show k1_pay1 (F := Ideal) _ _ _ (win1_3.xinj (grid1.coords t) j) = k1_pay1 (F := Ideal) _ _ _ (win1_3.xinj (grid1.coords t) j)
  rw [e]
  refine k1_pay1_local _ _ _ _ _ _ (fun k => ?_) ?_
  · have hm : win1_1.moved (grid1.coords t) (ValueIdx.ix2 (⟨(j 1).val, hq'⟩ : Fin 1536) k) = true :=
      (win1_1.moved_iff _ _).mpr fun a => by
        match a with
        | ⟨0, _⟩ => show (j 1).val < win1_1.xsize (grid1.coords t) 0; rw [hx10]; exact hq
        | ⟨1, _⟩ => show k.val < win1_1.xsize (grid1.coords t) 1; rw [hx11]; exact k.isLt
    unfold wblk1 Window.fill
    rw [dif_pos hm, dif_pos hm]
  · have hm : win1_2.moved (grid1.coords t) (ValueIdx.ix2 (0 : Fin 1) (⟨(j 1).val, hq'⟩ : Fin 1536)) = true :=
      (win1_2.moved_iff _ _).mpr fun a => by
        match a with
        | ⟨0, _⟩ => show 0 < win1_2.xsize (grid1.coords t) 0; rw [hx20]; exact Nat.one_pos
        | ⟨1, _⟩ => show (j 1).val < win1_2.xsize (grid1.coords t) 1; rw [hx21]; exact hq
    unfold bblk1 Window.fill
    rw [dif_pos hm, dif_pos hm]

/-! ## The body obligation -/

/-- What the body is called with at point `t`: the invariant, the core's `owes`, and each window's current buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the hidden row's buffer at its block; the three windows cut at the array's end each at the proof
    data's contents on the part their transfers move and anything elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

set_option maxHeartbeats 1000000 in
/-- At every point: the hidden row's buffer holds its block, the weight and bias buffers theirs where the fetch
    filled them and anything past the array's end, the result's anything; the body leaves the first three as they
    were and the result's at the payload, whose columns inside the array are those of the proof data's. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 (F := Ideal) c Set.univ _ _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win1_1.cut (grid1.coords t) (wblk1 V c t) = iblk1 V c 1 t := win1_1.cut_fill _ _ _
  have h2 : win1_2.cut (grid1.coords t) (bblk1 V c t) = iblk1 V c 2 t := win1_2.cut_fill _ _ _
  isplitl [H0]; · iexact H0
  isplitl [H1]
  · iexists d1; rw [h1]; iexact H1
  isplitl [H2]
  · iexists d2; rw [h2]; iexact H2
  · iexists (k1_pay1 (F := Ideal) (iblk1 V c 0 t) (win1_1.fill (grid1.coords t) d1 (iblk1 V c 1 t)) (win1_2.fill (grid1.coords t) d2 (iblk1 V c 2 t)))
    rw [← cut_local V c t d1 d2, Window.fill_cut, ← out1_3_eq]
    iexact H3

/-- The library's body obligation, at every point. -/
theorem body_obligation1 (c : Dev nD) :
    BodyObligationLoose (dat1 V c) (defs₀ (F := Ideal)) Variants.none () Set.univ := fun t => by
  rw [bigSep_W1, bigSep_W1]
  exact sound_body1 V c t

end Cert.KernelIdeal.Hand

end
-- ==== Proof.RunKI.lean ====
/-
  The idealized kernel's run, with every buffer's final contents named.
  @main is five items: host operations, region 0 (the gate pre-activations), host operations (the cell), region 1
  (the logits), host operations (the log-softmax and the results' layouts). The buffers' contents at each boundary are a
  fold from the launch memory: a stretch of host operations applies them; a region leaves its windows' arrays at what
  its write-backs leave (the inputs as entered, the output block by block) and every other buffer as entered.
  Every weakly fair execution terminates, and every unscoped buffer then holds the fold's last value.
-/
import proofs.«116744_j18193481466337_2_alg».proof.Proof.FrameKI0
import proofs.«116744_j18193481466337_2_alg».proof.Proof.Reg1Data
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen Cert.KernelIdeal.HandFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each boundary -/

/-- Core `c`'s buffers at launch. -/
abbrev W0 : Dev nD → Valuation τ sig (Elt Ideal) := fun c b => (s₀ m ρ).mem ((c : Dev nD), b)
/-- After the first stretch of host operations (region 0's entry). -/
abbrev W1 : Dev nD → Valuation τ sig (Elt Ideal) := fun c => StableHlo.after hostOps0 (W0 m ρ c)
abbrev V1 : (c : Dev nD) → (b : Ref sig .tc) → Buf (Elt Ideal) ((c : Thread nD τ).loc b) := fun c b => W1 m ρ c b
/-- At region 0's exit: its arrays at what the pipeline leaves, every other buffer as entered. -/
def W2 (c : Dev nD) : Valuation τ sig (Elt Ideal) :=
  Pipeline.withArrays spec0 c (W1 m ρ c) fun w => (dat0 (F := Ideal) (V1 m ρ) c).arrAt w cfg0.N
theorem W2_arr (c : Dev nD) (w : Fin cfg0.W) :
    W2 m ρ c (Proc.devRef .tc (Pipeline.arrRef spec0 w)) = (dat0 (F := Ideal) (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt Ideal) ((c : Thread nD τ).loc b) := fun c b => W2 m ρ c b
theorem hF0 (c : Dev nD) (w : Fin cfg0.W) : (dat0 (F := Ideal) (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt Ideal) := fun c => StableHlo.after hostOps1 (W2 m ρ c)
abbrev V3 : (c : Dev nD) → (b : Ref sig .tc) → Buf (Elt Ideal) ((c : Thread nD τ).loc b) := fun c b => W3 m ρ c b
/-- At region 1's exit. -/
def W4 (c : Dev nD) : Valuation τ sig (Elt Ideal) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt Ideal) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: what the program ends with. -/
abbrev W5 : Dev nD → Valuation τ sig (Elt Ideal) := fun c => StableHlo.after hostOps2 (W4 m ρ c)

/-! ## The proof data family and the thread state -/

abbrev adm : (p : Fin 2) → (pcfgs (F := Ideal) p).Adm := fun p => (cfgs p).toPCfg_adm
/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (F := Ideal) (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor
theorem hostOps2_fresh : (hostOps2 : List (HloOp τ sig (Elt Ideal))).Forall fun op => op.fresh = ∅ := by
  simp only [List.Forall]; repeat' constructor

abbrev segs : List (Pipeline.Seg (pcfgs (F := Ideal)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := Ideal) c = Pipeline.Seg.run (segs m ρ) := (main_chain c).trans (by chain_rfl)

set_option backward.isDefEq.respectTransparency.types false in
/-- At the compiled mesh, from any memory with zero counters: every weakly fair execution of @main terminates,
    nothing faulting, and every unscoped buffer of every core ends at the fold's last value. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.Spec.lean ====
/-
  The specification of one LSTM decoder step, as functions of the argument arrays over the extended reals.
  Both programs compute, from the token index, the states (h, c) and the weights:
    x      = max(emb[idx], 0)                                   (the embedding row, the index wrapped if negative)
    gates  = x · W_ihᵀ + h · W_hhᵀ + b_ih + b_hh                (one row of 8192 pre-activations)
    c'     = σ(gates₁) * c + σ(gates₀) * tanh(gates₂),  h' = σ(gates₃) * tanh(c')       (σ s = 1 / (1 + exp(−s)))
    logits = h' · W_outᵀ + b_out,   result = logits − max − log Σ exp(logits − max)
  The three chains the two programs spell with the same operations (x, the cell, the log-softmax) are kept as the
  operations themselves and never opened; the two places where the programs differ — the pre-activations, where one
  program groups the four terms as ((a + b) + p) + q and the other as ((a + p) + b) + q, and the logits — are stated
  element by element as sums over the contracted axis.
-/
import proofs.«116744_j18193481466337_2_alg».proof.Proof.Gen.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal Cert.KernelIdeal.Gen

/-- The token index, wrapped by the table's height when negative, as the [1, 1] array of start indices. -/
def startIdx (idx : (⟨S1, .i32⟩ : BufTy).Contents (Elt Ideal)) : (⟨S1x1, .i32⟩ : BufTy).Contents (Elt Ideal) :=
  broadcastInDim S1x1 ![0] bcast_S1_S1x1_0
    (select (cmpi .slt idx (broadcastInDim S1 ![] bcast_S_S1 (constantI S_ 32 0#32)))
      (addi idx (broadcastInDim S1 ![] bcast_S_S1 (constantI S_ 32 50257#32))) idx)

/-- x: the embedding row the index selects, negative entries replaced by zero. -/
def xOf (idx : (⟨S1, .i32⟩ : BufTy).Contents (Elt Ideal)) (emb : (⟨S50257x2048, .f32⟩ : BufTy).Contents (Elt Ideal)) :
    (⟨S1x2048, .f32⟩ : BufTy).Contents (Elt Ideal) :=
  maximumf (Host.gather gather_S50257x2048_S1x1_S1x2048_1_0_n_n_0_1_12048 emb (startIdx idx))
    (broadcastInDim S1x2048 ![] bcast_S_S1x2048 (constant (F := Ideal) S_ .f32 0x00000000#32))

/-- σ s = 1 / (1 + exp(−s)), in the operations both programs use. -/
def sigm (s : FVec Ideal S1x2048 .f32) : FVec Ideal S1x2048 .f32 :=
  Host.divf (broadcastInDim S1x2048 ![] bcast_S_S1x2048 (constant (F := Ideal) S_ .f32 0x3F800000#32))
    (addf (broadcastInDim S1x2048 ![] bcast_S_S1x2048 (constant (F := Ideal) S_ .f32 0x3F800000#32)) (Host.exp (Host.negf s)))

/-- The new cell state: σ(gates[2048:4096]) * c + σ(gates[0:2048]) * tanh(gates[4096:6144]). -/
def cellC (gates : FVec Ideal S1x8192 .f32) (c : FVec Ideal S1x2048 .f32) : FVec Ideal S1x2048 .f32 :=
  addf (mulf (sigm (extractStridedSlice S1x2048 ![0, 2048] gates slices_S1x8192_S1x2048_0_2048)) c)
    (mulf (sigm (extractStridedSlice S1x2048 ![0, 0] gates slices_S1x8192_S1x2048_0_0))
      (Host.tanh (extractStridedSlice S1x2048 ![0, 4096] gates slices_S1x8192_S1x2048_0_4096)))

/-- The new hidden state: σ(gates[6144:8192]) * tanh(c'). -/
def cellH (gates : FVec Ideal S1x8192 .f32) (c : FVec Ideal S1x2048 .f32) : FVec Ideal S1x2048 .f32 :=
  mulf (sigm (extractStridedSlice S1x2048 ![0, 6144] gates slices_S1x8192_S1x2048_0_6144)) (Host.tanh (cellC gates c))

/-- The row's maximum (never below −∞'s word), as the [1, 50257] array. -/
def rowMax (l : FVec Ideal S1x50257 .f32) : FVec Ideal S1x50257 .f32 :=
  broadcastInDim S1x50257 ![0, 1] bcast_S1x1_S1x50257_0_1
    (broadcastInDim S1x1 ![0] bcast_S1_S1x1_0
      (maximumf (broadcastInDim S1 ![] bcast_S_S1 (constant (F := Ideal) S_ .f32 0xFF800000#32))
        (Host.reduce FloatOps.maximumf l (constant (F := Ideal) S_ .f32 0xFF800000#32) reducesTo_S1x50257_S1_d1 h_S_)))

/-- log-softmax along the row: (l − max) − log Σ exp(l − max). -/
def logSoftmax (l : FVec Ideal S1x50257 .f32) : FVec Ideal S1x50257 .f32 :=
  subf (subf l (rowMax l))
    (broadcastInDim S1x50257 ![0, 1] bcast_S1x1_S1x50257_0_1
      (Host.log (broadcastInDim S1x1 ![0] bcast_S1_S1x1_0
        (Host.reduceAdd (Host.exp (subf l (rowMax l))) (constant (F := Ideal) S_ .f32 0x00000000#32) reducesTo_S1x50257_S1_d1 h_S_))))

/-- The pre-activations, element by element: entry j of the row is
    ((Σₖ x k * W_ih j k + Σₖ h k * W_hh j k) + b_ih j) + b_hh j. -/
def preact (x h : FVec Ideal S1x2048 .f32) (Wih Whh : FVec Ideal S8192x2048 .f32) (bih bhh : FVec Ideal S8192 .f32) :
    FVec Ideal S1x8192 .f32 :=
  fun i => (((∑ k : Fin 2048, x (ix2 (0 : Fin 1) k) * Wih (ix2 (i 1 : Fin 8192) k))
      + ∑ k : Fin 2048, h (ix2 (0 : Fin 1) k) * Whh (ix2 (i 1 : Fin 8192) k))
    + bih (ix1 (i 1 : Fin 8192))) + bhh (ix1 (i 1 : Fin 8192))

/-- The logits, element by element: entry j of the row is Σₖ h' k * W_out j k + b_out j. -/
def proj (h' : FVec Ideal S1x2048 .f32) (Wout : FVec Ideal S50257x2048 .f32) (bout : FVec Ideal S50257 .f32) :
    FVec Ideal S1x50257 .f32 :=
  fun i => (∑ k : Fin 2048, h' (ix2 (0 : Fin 1) k) * Wout (ix2 (i 1 : Fin 50257) k)) + bout (ix1 (i 1 : Fin 50257))

/-- The three results as functions of the ten arguments. -/
structure Args where
  idx : (⟨S1, .i32⟩ : BufTy).Contents (Elt Ideal)
  h0 : FVec Ideal S1x1x2048 .f32
  c0 : FVec Ideal S1x1x2048 .f32
  emb : FVec Ideal S50257x2048 .f32
  Wih : FVec Ideal S8192x2048 .f32
  Whh : FVec Ideal S8192x2048 .f32
  bih : FVec Ideal S8192 .f32
  bhh : FVec Ideal S8192 .f32
  Wout : FVec Ideal S50257x2048 .f32
  bout : FVec Ideal S50257 .f32

/-- h and c as rows [1, 2048]. -/
def Args.h (a : Args) : FVec Ideal S1x2048 .f32 := shapeCast S1x2048 a.h0 shapeCasts_S1x1x2048_S1x2048
def Args.c (a : Args) : FVec Ideal S1x2048 .f32 := shapeCast S1x2048 a.c0 shapeCasts_S1x1x2048_S1x2048
/-- The pre-activations of the step. -/
def Args.gates (a : Args) : FVec Ideal S1x8192 .f32 := preact (xOf a.idx a.emb) a.h a.Wih a.Whh a.bih a.bhh
/-- The new states as rows. -/
def Args.cNew (a : Args) : FVec Ideal S1x2048 .f32 := cellC a.gates a.c
def Args.hNew (a : Args) : FVec Ideal S1x2048 .f32 := cellH a.gates a.c
/-- Result 0: the log-probabilities [1, 50257]. -/
def Args.out0 (a : Args) : FVec Ideal S1x50257 .f32 := logSoftmax (proj a.hNew a.Wout a.bout)
/-- Result 1: the new hidden state [1, 1, 2048]. -/
def Args.out1 (a : Args) : FVec Ideal S1x1x2048 .f32 := broadcastInDim S1x1x2048 ![1, 2] bcast_S1x2048_S1x1x2048_1_2 a.hNew
/-- Result 2: the new cell state [1, 1, 2048]. -/
def Args.out2 (a : Args) : FVec Ideal S1x1x2048 .f32 := broadcastInDim S1x1x2048 ![1, 2] bcast_S1x2048_S1x1x2048_1_2 a.cNew

end Cert.Spec

end
-- ==== Proof.HostRead.lean ====
/-
  The three stretches of host operations of the program, read back as the specification's chains.
  Each stretch is a straight line of whole-array operations; what a buffer holds after it is the
  composition of the operations that lead to it, applied to what the buffers it starts from held.
  Stretch 0 computes the input row x from the token index and the embedding table and reshapes the two
  states and the two bias vectors to rows; stretch 1 is the cell (the new cell state and the new hidden
  state from the row of pre-activations and the old cell state) and reshapes the output bias to a row;
  stretch 2 is the log-softmax of the logits and gives the two new states their leading unit axis.
  All statements hold for every contents the stretch may start from.
-/
import proofs.«116744_j18193481466337_2_alg».proof.Proof.Spec
import proofs.«116744_j18193481466337_2_alg».proof.Proof.Gen.KernelIdeal.Regions
import Idealize.ShloMosaic.Lib.StableHlo.Run

noncomputable section

namespace Cert.KernelIdeal.HostRead

open Idealize.ShloMosaic Idealize.ShloMosaic.TcCoe Idealize.ShloMosaic.StableHlo Idealize.SL.Sem Cert.KernelIdeal Cert.KernelIdeal.Gen

/-! ## Stretch 0 -/

set_option maxHeartbeats 400000 in
/-- The input row: the embedding row the (wrapped) index selects, negative entries replaced by zero. -/
theorem x_eq (V : Valuation τ sig (Elt Ideal)) :
    (after (hostOps0 (F := Ideal)) V (Proc.devRef .tc main_call0_v7) : (⟨S1x2048, .f32⟩ : BufTy).Contents (Elt Ideal))
      = Spec.xOf (V (Proc.devRef .tc main_arg0)) (V (Proc.devRef .tc main_arg3)) := by
  after_results
  rfl

set_option maxHeartbeats 400000 in
/-- The old hidden state as a row. -/
theorem h_eq (V : Valuation τ sig (Elt Ideal)) :
    (after (hostOps0 (F := Ideal)) V (Proc.devRef .tc main_call0_v8) : (⟨S1x2048, .f32⟩ : BufTy).Contents (Elt Ideal))
      = shapeCast S1x2048 (V (Proc.devRef .tc main_arg1)) shapeCasts_S1x1x2048_S1x2048 := by
  after_results
  rfl

set_option maxHeartbeats 400000 in
/-- The old cell state as a row. -/
theorem c_eq (V : Valuation τ sig (Elt Ideal)) :
    (after (hostOps0 (F := Ideal)) V (Proc.devRef .tc main_call0_v9) : (⟨S1x2048, .f32⟩ : BufTy).Contents (Elt Ideal))
      = shapeCast S1x2048 (V (Proc.devRef .tc main_arg2)) shapeCasts_S1x1x2048_S1x2048 := by
  after_results
  rfl

set_option maxHeartbeats 400000 in
/-- The first bias vector as a row. -/
theorem bih_eq (V : Valuation τ sig (Elt Ideal)) :
    (after (hostOps0 (F := Ideal)) V (Proc.devRef .tc main_call0_v10) : (⟨S1x8192, .f32⟩ : BufTy).Contents (Elt Ideal))
      = shapeCast S1x8192 (V (Proc.devRef .tc main_arg6)) shapeCasts_S8192_S1x8192 := by
  after_results
  rfl

set_option maxHeartbeats 400000 in
/-- The second bias vector as a row. -/
theorem bhh_eq (V : Valuation τ sig (Elt Ideal)) :
    (after (hostOps0 (F := Ideal)) V (Proc.devRef .tc main_call0_v11) : (⟨S1x8192, .f32⟩ : BufTy).Contents (Elt Ideal))
      = shapeCast S1x8192 (V (Proc.devRef .tc main_arg7)) shapeCasts_S8192_S1x8192 := by
  after_results
  rfl

/-- Stretch 0 leaves alone every buffer it does not write. -/
theorem keeps0 (V : Valuation τ sig (Elt Ideal)) (r : Ref sig .tc) (h : r ∉ hostOps0_W) :
    after (hostOps0 (F := Ideal)) V (Proc.devRef .tc r) = V (Proc.devRef .tc r) :=
  after_of_writes_sub hostOps0 V hostOps0_writes h

/-! ## Stretch 1 -/

set_option maxHeartbeats 1000000 in
/-- The new cell state. -/
theorem cNew_eq (V : Valuation τ sig (Elt Ideal)) :
    (after (hostOps1 (F := Ideal)) V (Proc.devRef .tc main_call0_v38) : (⟨S1x2048, .f32⟩ : BufTy).Contents (Elt Ideal))
      = Spec.cellC (V (Proc.devRef .tc main_call0_v12)) (V (Proc.devRef .tc main_call0_v9)) := by
  after_results_simp
  rfl

set_option maxHeartbeats 1000000 in
/-- The new hidden state. -/
theorem hNew_eq (V : Valuation τ sig (Elt Ideal)) :
    (after (hostOps1 (F := Ideal)) V (Proc.devRef .tc main_call0_v40) : (⟨S1x2048, .f32⟩ : BufTy).Contents (Elt Ideal))
      = Spec.cellH (V (Proc.devRef .tc main_call0_v12)) (V (Proc.devRef .tc main_call0_v9)) := by
  after_results_simp
  rfl

set_option maxHeartbeats 1000000 in
/-- The output bias vector as a row. -/
theorem bout_eq (V : Valuation τ sig (Elt Ideal)) :
    (after (hostOps1 (F := Ideal)) V (Proc.devRef .tc main_call0_v41) : (⟨S1x50257, .f32⟩ : BufTy).Contents (Elt Ideal))
      = shapeCast S1x50257 (V (Proc.devRef .tc main_arg9)) shapeCasts_S50257_S1x50257 := by
  after_results_simp
  rfl

/-- Stretch 1 leaves alone every buffer it does not write. -/
theorem keeps1 (V : Valuation τ sig (Elt Ideal)) (r : Ref sig .tc) (h : r ∉ hostOps1_W) :
    after (hostOps1 (F := Ideal)) V (Proc.devRef .tc r) = V (Proc.devRef .tc r) :=
  after_of_writes_sub hostOps1 V hostOps1_writes h

/-! ## Stretch 2 -/

/-- Contents carried to a buffer's own type and back are the contents. -/
theorem ofBuf_toBuf {T : BufTy} (x : TRef sig T) (v : T.Contents (Elt Ideal)) : x.ofBuf (x.toBuf v) = v := by
  unfold TRef.ofBuf TRef.toBuf
  rw [cast_cast, cast_eq]

/-- The result buffer's type is the row's: carrying contents to it changes nothing. -/
theorem toBuf_out0 (v : (⟨S1x50257, .f32⟩ : BufTy).Contents (Elt Ideal)) :
    (TRef.of main_v0_0 : TRef sig ⟨S1x50257, .f32⟩).toBuf v = v := rfl

/-- The logits' buffer's type is the row's: carrying contents from it changes nothing. -/
theorem ofBuf_logits (v : (main_call0_v42 : Ref sig .tc).ty.Contents (Elt Ideal)) :
    (TRef.of main_call0_v42 : TRef sig ⟨S1x50257, .f32⟩).ofBuf v = v := rfl

set_option maxRecDepth 65536 in
set_option maxHeartbeats 1000000 in
/-- Result 0: the log-softmax of the logits. The two sides are the same operations: the reductions over the
    row are compared as they stand, never opened. -/
theorem out0_eq (V : Valuation τ sig (Elt Ideal)) :
    (after (hostOps2 (F := Ideal)) V (Proc.devRef .tc main_v0_0) : (⟨S1x50257, .f32⟩ : BufTy).Contents (Elt Ideal))
      = Spec.logSoftmax (V (Proc.devRef .tc main_call0_v42)) := by
  after_results
  unfold Spec.logSoftmax Spec.rowMax
  generalize V (Proc.devRef .tc main_call0_v42) = l
  simp only [ofBuf_toBuf]
  rw [toBuf_out0]
  simp only [ofBuf_logits]

set_option maxHeartbeats 1000000 in
/-- Result 1: the new hidden state with its leading unit axis. -/
theorem out1_eq (V : Valuation τ sig (Elt Ideal)) :
    (after (hostOps2 (F := Ideal)) V (Proc.devRef .tc main_v0_1) : (⟨S1x1x2048, .f32⟩ : BufTy).Contents (Elt Ideal))
      = broadcastInDim S1x1x2048 ![1, 2] bcast_S1x2048_S1x1x2048_1_2 (V (Proc.devRef .tc main_call0_v40)) := by
  after_results_simp
  rfl

set_option maxHeartbeats 1000000 in
/-- Result 2: the new cell state with its leading unit axis. -/
theorem out2_eq (V : Valuation τ sig (Elt Ideal)) :
    (after (hostOps2 (F := Ideal)) V (Proc.devRef .tc main_v0_2) : (⟨S1x1x2048, .f32⟩ : BufTy).Contents (Elt Ideal))
      = broadcastInDim S1x1x2048 ![1, 2] bcast_S1x2048_S1x1x2048_1_2 (V (Proc.devRef .tc main_call0_v38)) := by
  after_results_simp
  rfl

/-- Stretch 2 leaves alone every buffer it does not write. -/
theorem keeps2 (V : Valuation τ sig (Elt Ideal)) (r : Ref sig .tc) (h : r ∉ hostOps2_W) :
    after (hostOps2 (F := Ideal)) V (Proc.devRef .tc r) = V (Proc.devRef .tc r) :=
  after_of_writes_sub hostOps2 V hostOps2_writes h

end Cert.KernelIdeal.HostRead

end
-- ==== Proof.BlocksG.lean ====
/-
  From blocks to the array, region 0: what the region leaves in its output array, as one function of what
  its input arrays held when it was entered.
  The region has 16 points; point t writes back columns 512 t … 512 t + 511 of the row of pre-activations,
  computed from the whole input row x, the whole state row h, rows 512 t … of the two weight matrices and
  columns 512 t … of the two bias rows. So column j of the output array is written by point j / 512 and holds
      ((Σₖ x k * W_ih j k + Σₖ h k * W_hh j k) + b_ih j) + b_hh j.
  The bias vectors reach the region as rows [1, 8192]: entry j of the vector is entry (0, j) of the row.
-/
import proofs.«116744_j18193481466337_2_alg».proof.Proof.Spec
import proofs.«116744_j18193481466337_2_alg».proof.Proof.Pay
import proofs.«116744_j18193481466337_2_alg».proof.Proof.FrameKI0
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.HandFrame Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A row [1, 8192] as the vector of its 8192 entries. -/
def row8192 (b : FVec Ideal S1x8192 .f32) : FVec Ideal S8192 .f32 := fun i => b (ix2 (0 : Fin 1) (i 0 : Fin 8192))

/-- A vector reshaped to a row, read back as a vector, is the vector. -/
theorem row8192_shapeCast (b : FVec Ideal S8192 .f32) : row8192 (shapeCast S1x8192 b shapeCasts_S8192_S1x8192) = b := by
  funext i
  unfold row8192
  refine shapeCast_apply b shapeCasts_S8192_S1x8192 (ix2 (0 : Fin 1) (i 0 : Fin 8192)) i ?_
  rw [Shape.rowMajor_val_one, Shape.rowMajor_val_two]
  show (i 0).val = 0 * 8192 + (i 0).val
  omega

/-- The block indices over the grid: the two rows are fetched whole, the weight blocks move down the rows and
    the bias and output blocks along the columns with the point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- The input row's block is the row. -/
theorem iblk0_0_apply (c : Dev nD) (t : Fin cfg0.N) (k : Fin 2048) :
    (iblk0 V c 0 t : Vec Ideal S1x2048 .f32) (ix2 (0 : Fin 1) k)
      = (V c main_call0_v7 : S1x2048.Idx → Elt Ideal .f32) (ix2 (0 : Fin 1) k) := by
  obtain ⟨e0, e1, -⟩ := idx0 t
  unfold iblk0
  rw [View.read_apply]
  show V c main_call0_v7 _ = V c main_call0_v7 _
  congr 1
  funext a
  apply Fin.ext
  match a with
  | ⟨0, _⟩ => show win0_0.index t 0 * 1 + 1 * 0 = 0; rw [e0]
  | ⟨1, _⟩ => show win0_0.index t 1 * 2048 + 1 * k.val = k.val; rw [e1]; omega

/-- A weight block's row q is row 512 t + q of the matrix. -/
theorem iblk0_2_apply (c : Dev nD) (t : Fin cfg0.N) (q : Fin 512) (k : Fin 2048) (r : Fin 8192) (hr : r.val = t.val * 512 + q.val) :
    (iblk0 V c 2 t : Vec Ideal S512x2048 .f32) (ix2 q k)
      = (V c main_arg4 : S8192x2048.Idx → Elt Ideal .f32) (ix2 r k) := by
  obtain ⟨-, -, -, -, e0, e1, -⟩ := idx0 t
  unfold iblk0
  rw [View.read_apply]
  show V c main_arg4 _ = V c main_arg4 _
  congr 1
  funext a
  apply Fin.ext
  match a with
  | ⟨0, _⟩ => show win0_2.index t 0 * 512 + 1 * q.val = r.val; rw [e0, hr]; omega
  | ⟨1, _⟩ => show win0_2.index t 1 * 2048 + 1 * k.val = k.val; rw [e1]; omega

/-- A bias block's entry q is entry 512 t + q of the row. -/
theorem iblk0_4_apply (c : Dev nD) (t : Fin cfg0.N) (q : Fin 512) (r : Fin 8192) (hr : r.val = t.val * 512 + q.val) :
    (iblk0 V c 4 t : Vec Ideal S1x512 .f32) (ix2 (0 : Fin 1) q)
      = (V c main_call0_v10 : S1x8192.Idx → Elt Ideal .f32) (ix2 (0 : Fin 1) r) := by
  obtain ⟨-, -, -, -, -, -, -, -, e0, e1, -⟩ := idx0 t
  unfold iblk0
  rw [View.read_apply]
  show V c main_call0_v10 _ = V c main_call0_v10 _
  congr 1
  funext a
  apply Fin.ext
  match a with
  | ⟨0, _⟩ => show win0_4.index t 0 * 1 + 1 * 0 = 0; rw [e0]
  | ⟨1, _⟩ => show win0_4.index t 1 * 512 + 1 * q.val = r.val; rw [e1, hr]; omega

/-- The state row's block is the row. -/
theorem iblk0_1_apply (c : Dev nD) (t : Fin cfg0.N) (k : Fin 2048) :
    (iblk0 V c 1 t : Vec Ideal S1x2048 .f32) (ix2 (0 : Fin 1) k)
      = (V c main_call0_v8 : S1x2048.Idx → Elt Ideal .f32) (ix2 (0 : Fin 1) k) := by
  obtain ⟨-, -, e0, e1, -⟩ := idx0 t
  unfold iblk0
  rw [View.read_apply]
  show V c main_call0_v8 _ = V c main_call0_v8 _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

/-- The second weight block's row q is row 512 t + q of the second matrix. -/
theorem iblk0_3_apply (c : Dev nD) (t : Fin cfg0.N) (q : Fin 512) (k : Fin 2048) (r : Fin 8192) (hr : r.val = t.val * 512 + q.val) :
    (iblk0 V c 3 t : Vec Ideal S512x2048 .f32) (ix2 q k)
      = (V c main_arg5 : S8192x2048.Idx → Elt Ideal .f32) (ix2 r k) := by
  obtain ⟨-, -, -, -, -, -, e0, e1, -⟩ := idx0 t
  unfold iblk0
  rw [View.read_apply]
  show V c main_arg5 _ = V c main_arg5 _
  congr 1
  funext a
  apply Fin.ext
  match a with
  | ⟨0, _⟩ => show win0_3.index t 0 * 512 + 1 * q.val = r.val; rw [e0, hr]; omega
  | ⟨1, _⟩ => show win0_3.index t 1 * 2048 + 1 * k.val = k.val; rw [e1]; omega

/-- The second bias block's entry q is entry 512 t + q of the second row. -/
theorem iblk0_5_apply (c : Dev nD) (t : Fin cfg0.N) (q : Fin 512) (r : Fin 8192) (hr : r.val = t.val * 512 + q.val) :
    (iblk0 V c 5 t : Vec Ideal S1x512 .f32) (ix2 (0 : Fin 1) q)
      = (V c main_call0_v11 : S1x8192.Idx → Elt Ideal .f32) (ix2 (0 : Fin 1) r) := by
  obtain ⟨-, -, -, -, -, -, -, -, -, -, e0, e1, -⟩ := idx0 t
  unfold iblk0
  rw [View.read_apply]
  show V c main_call0_v11 _ = V c main_call0_v11 _
  congr 1
  funext a
  apply Fin.ext
  match a with
  | ⟨0, _⟩ => show win0_5.index t 0 * 1 + 1 * 0 = 0; rw [e0]
  | ⟨1, _⟩ => show win0_5.index t 1 * 512 + 1 * q.val = r.val; rw [e1, hr]; omega

/-- The row of pre-activations, from what region 0's six input arrays hold when it is entered. -/
def gatesOf (c : Dev nD) : FVec Ideal S1x8192 .f32 :=
  Spec.preact (V c main_call0_v7) (V c main_call0_v8) (V c main_arg4) (V c main_arg5)
    (row8192 (V c main_call0_v10)) (row8192 (V c main_call0_v11))

set_option maxHeartbeats 400000 in
/-- What point t writes back is block t of the row of pre-activations. -/
theorem flushed0_eq (c : Dev nD) (t : Fin cfg0.N) :
    (dat0 V c).flushed 6 t = ((cfg0.win 6).blk t).view.read (Elt Ideal) (gatesOf V c) := by
  show (cfg0.win 6).cut (grid0.coords t) ((dat0 V c).after 6 t) = _
  rw [after0_6]
  unfold out0_6
  rw [View.canon_unit_zero hz]
  simp only [View.ld_unit_zero (S := S1x2048) hz, View.ld_unit_zero (S := S512x2048) hz, View.ld_unit_zero (S := S1x512) hz]
  obtain ⟨-, -, -, -, -, -, -, -, -, -, -, -, e0, e1⟩ := idx0 t
  funext j
  have hq : (j 1).val < 512 := Nat.lt_of_lt_of_le (j 1).isLt (win0_6.xsize_le (grid0.coords t) 1)
  have e : win0_6.xinj (grid0.coords t) j = ix2 (0 : Fin 1) (⟨(j 1).val, hq⟩ : Fin 512) := by
    funext a
    match a with
    | ⟨0, _⟩ => exact Fin.ext (Nat.lt_one_iff.mp (win0_6.xinj (grid0.coords t) j 0).isLt)
    | ⟨1, _⟩ => rfl
  have ht : t.val < 16 := t.isLt
  have hr : t.val * 512 + (j 1).val < 8192 := by omega
  have eE : ((cfg0.win 6).blk t).view.emb j = ix2 (0 : Fin 1) (⟨t.val * 512 + (j 1).val, hr⟩ : Fin 8192) := by
    funext a
    apply Fin.ext
    match a with
    | ⟨0, _⟩ =>
      have h0 : (j 0).val < 1 := Nat.lt_of_lt_of_le (j 0).isLt (win0_6.xsize_le (grid0.coords t) 0)
      show win0_6.index t 0 * 1 + 1 * (j 0).val = 0; rw [e0]; omega
    | ⟨1, _⟩ => show win0_6.index t 1 * 512 + 1 * (j 1).val = t.val * 512 + (j 1).val; rw [e1]; omega
  rw [View.read_apply]
  show k0_pay1 (F := Ideal) _ _ _ _ _ _ (win0_6.xinj (grid0.coords t) j) = gatesOf V c (((cfg0.win 6).blk t).view.emb j)
  rw [e, eE, k0_pay1_apply]
  unfold gatesOf Spec.preact row8192
  refine congrArg₂ (· + ·) (congrArg₂ (· + ·) (congrArg₂ (· + ·) (Finset.sum_congr rfl fun k _ => ?_) (Finset.sum_congr rfl fun k _ => ?_)) ?_) ?_
  · rw [iblk0_0_apply, iblk0_2_apply V c t ⟨(j 1).val, hq⟩ k ⟨t.val * 512 + (j 1).val, hr⟩ rfl]
  · rw [iblk0_1_apply, iblk0_3_apply V c t ⟨(j 1).val, hq⟩ k ⟨t.val * 512 + (j 1).val, hr⟩ rfl]
  · exact iblk0_4_apply V c t ⟨(j 1).val, hq⟩ ⟨t.val * 512 + (j 1).val, hr⟩ rfl
  · exact iblk0_5_apply V c t ⟨(j 1).val, hq⟩ ⟨t.val * 512 + (j 1).val, hr⟩ rfl

/-- An index of the output row is in point t's block iff its column is among the block's 512. -/
theorem mem_blk0 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_call0_v12).slice (win0_6.rect t)).set ↔ _
  rw [View.set_slice_whole, Rect.mem_set_unit]
  exact Iff.rfl

/-- Column j of the output row is in the block of point j / 512. -/
theorem cover0 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  have hN : cfg0.N = 16 := N_0
  refine ⟨⟨(i 1).val / 512, by rw [hN]; omega⟩, flush0_6 _, ?_⟩
  rw [mem_blk0]
  obtain ⟨-, -, -, -, -, -, -, -, -, -, -, -, e0, e1⟩ := idx0 ⟨(i 1).val / 512, by rw [hN]; omega⟩
  intro a
  match a with
  | ⟨0, _⟩ => show win0_6.index _ 0 * 1 ≤ (i 0).val ∧ (i 0).val < win0_6.index _ 0 * 1 + 1; rw [e0]; omega
  | ⟨1, _⟩ => show win0_6.index _ 1 * 512 ≤ (i 1).val ∧ (i 1).val < win0_6.index _ 1 * 512 + 512; rw [e1]; show (i 1).val / 512 * 512 ≤ (i 1).val ∧ (i 1).val < (i 1).val / 512 * 512 + 512; omega

/-- REGION 0's OUTPUT ARRAY after its run is the row of pre-activations of its input arrays' entry contents. -/
theorem gates_final (c : Dev nD) : (dat0 V c).arrAt 6 cfg0.N = gatesOf V c :=
  (dat0 V c).arrAt_eq_of_cover 6 (gatesOf V c) (fun t _ => flushed0_eq V c t) cover0

/-- REGION 0's OUTPUT ARRAY after its run, with the two bias rows the reshapes of the bias vectors: the
    specification's row of pre-activations. -/
theorem gates_eq (c : Dev nD) (bih bhh : FVec Ideal S8192 .f32)
    (h1 : V c main_call0_v10 = shapeCast S1x8192 bih shapeCasts_S8192_S1x8192)
    (h2 : V c main_call0_v11 = shapeCast S1x8192 bhh shapeCasts_S8192_S1x8192) :
    (dat0 (F := Ideal) V c).arrAt 6 cfg0.N
      = Spec.preact (V c main_call0_v7) (V c main_call0_v8) (V c main_arg4) (V c main_arg5) bih bhh := by
  rw [gates_final]
  unfold gatesOf
  rw [h1, h2, row8192_shapeCast, row8192_shapeCast]

end Cert.KernelIdeal.Blocks

end
-- ==== Proof.BlocksL.lean ====
/-
  From blocks to the array, region 1: what the region leaves in its output array, as one function of what
  its input arrays held when it was entered.
  The region has 33 points; point t writes back columns 1536 t … of the row of logits, those of them that lie
  inside the array (the last block overhangs it: of its 1536 columns only 49152 … 50256 are written back),
  computed from the whole new hidden row, rows 1536 t … of the output weights and columns 1536 t … of the
  output bias row. A column that is written back reads one row of the weight block and one entry of the bias
  block, both inside their arrays, so what fills the buffers past the arrays' ends never shows.
  Column j of the output array is written by point j / 1536 and holds  Σₖ h' k * W_out j k + b_out j.
  The bias vector reaches the region as a row [1, 50257]: entry j of the vector is entry (0, j) of the row.
-/
import proofs.«116744_j18193481466337_2_alg».proof.Proof.Spec
import proofs.«116744_j18193481466337_2_alg».proof.Proof.Pay
import proofs.«116744_j18193481466337_2_alg».proof.Proof.Reg1Data
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A row [1, 50257] as the vector of its 50257 entries. -/
def row50257 (b : FVec Ideal S1x50257 .f32) : FVec Ideal S50257 .f32 := fun i => b (ix2 (0 : Fin 1) (i 0 : Fin 50257))

/-- A vector reshaped to a row, read back as a vector, is the vector. -/
theorem row50257_shapeCast (b : FVec Ideal S50257 .f32) : row50257 (shapeCast S1x50257 b shapeCasts_S50257_S1x50257) = b := by
  funext i
  unfold row50257
  refine shapeCast_apply b shapeCasts_S50257_S1x50257 (ix2 (0 : Fin 1) (i 0 : Fin 50257)) i ?_
  rw [Shape.rowMajor_val_one, Shape.rowMajor_val_two]
  show (i 0).val = 0 * 50257 + (i 0).val
  omega

/-- The block indices over the grid, and what the last block keeps of its 1536 columns: the hidden row is fetched
    whole, the weight blocks move down the rows and the bias and output blocks along the columns with the point;
    the output block at point t has the columns 1536 t … that lie inside the row of 50257. -/
theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_3.xsize (grid1.coords t) (0 : Fin 2) = 1
    ∧ win1_3.xsize (grid1.coords t) (1 : Fin 2) = min 1536 (50257 - t.val * 1536) :=
  (by decide +kernel : ∀ t : Fin grid1.N, _)

/-- The hidden row's block is the row. -/
theorem iblk1_0_apply (c : Dev nD) (t : Fin cfg1.N) (k : Fin 2048) :
    (iblk1 V c 0 t : Vec Ideal S1x2048 .f32) (ix2 (0 : Fin 1) k)
      = (V c main_call0_v40 : S1x2048.Idx → Elt Ideal .f32) (ix2 (0 : Fin 1) k) := by
  obtain ⟨e0, e1, -⟩ := idx1 t
  unfold iblk1
  rw [View.read_apply]
  show V c main_call0_v40 _ = V c main_call0_v40 _
  congr 1
  funext a
  apply Fin.ext
  match a with
  | ⟨0, _⟩ => show win1_0.index t 0 * 1 + 1 * 0 = 0; rw [e0]
  | ⟨1, _⟩ => show win1_0.index t 1 * 2048 + 1 * k.val = k.val; rw [e1]; omega

/-- Row q of the weight block, when column q of the output block lies inside the array, is row 1536 t + q of the
    weight matrix. -/
theorem wblk1_apply (c : Dev nD) (t : Fin cfg1.N) (q : Fin 1536) (k : Fin 2048) (r : Fin 50257)
    (hq : q.val < win1_3.xsize (grid1.coords t) 1) (hr : r.val = t.val * 1536 + q.val) :
    wblk1 V c t (ix2 q k) = (V c main_arg8 : S50257x2048.Idx → Elt Ideal .f32) (ix2 r k) := by
  obtain ⟨hx10, hx11, hx21, hx20⟩ := xsizes1 t
  obtain ⟨-, -, e0, e1, -⟩ := idx1 t
  have hm : win1_1.moved (grid1.coords t) (ix2 q k) = true :=
    (win1_1.moved_iff _ _).mpr fun a => by
      match a with
      | ⟨0, _⟩ => show q.val < win1_1.xsize (grid1.coords t) 0; rw [hx10]; exact hq
      | ⟨1, _⟩ => show k.val < win1_1.xsize (grid1.coords t) 1; rw [hx11]; exact k.isLt
  unfold wblk1 Window.fill
  rw [dif_pos hm]
  unfold iblk1
  rw [View.read_apply]
  show V c main_arg8 _ = V c main_arg8 _
  congr 1
  funext a
  apply Fin.ext
  match a with
  | ⟨0, _⟩ => show win1_1.index t 0 * 1536 + 1 * q.val = r.val; rw [e0, hr]; omega
  | ⟨1, _⟩ => show win1_1.index t 1 * 2048 + 1 * k.val = k.val; rw [e1]; omega

/-- Entry q of the bias block, when column q of the output block lies inside the array, is entry 1536 t + q of
    the bias row. -/
theorem bblk1_apply (c : Dev nD) (t : Fin cfg1.N) (q : Fin 1536) (r : Fin 50257)
    (hq : q.val < win1_3.xsize (grid1.coords t) 1) (hr : r.val = t.val * 1536 + q.val) :
    bblk1 V c t (ix2 (0 : Fin 1) q) = (V c main_call0_v41 : S1x50257.Idx → Elt Ideal .f32) (ix2 (0 : Fin 1) r) := by
  obtain ⟨hx10, hx11, hx21, hx20⟩ := xsizes1 t
  obtain ⟨-, -, -, -, e0, e1, -⟩ := idx1 t
  have hm : win1_2.moved (grid1.coords t) (ix2 (0 : Fin 1) q) = true :=
    (win1_2.moved_iff _ _).mpr fun a => by
      match a with
      | ⟨0, _⟩ => show 0 < win1_2.xsize (grid1.coords t) 0; rw [hx20]; exact Nat.one_pos
      | ⟨1, _⟩ => show q.val < win1_2.xsize (grid1.coords t) 1; rw [hx21]; exact hq
  unfold bblk1 Window.fill
  rw [dif_pos hm]
  unfold iblk1
  rw [View.read_apply]
  show V c main_call0_v41 _ = V c main_call0_v41 _
  congr 1
  funext a
  apply Fin.ext
  match a with
  | ⟨0, _⟩ => show win1_2.index t 0 * 1 + 1 * 0 = 0; rw [e0]
  | ⟨1, _⟩ => show win1_2.index t 1 * 1536 + 1 * q.val = r.val; rw [e1, hr]; omega

/-- The row of logits, from what region 1's three input arrays hold when it is entered. -/
def logitsOf (c : Dev nD) : FVec Ideal S1x50257 .f32 :=
  Spec.proj (V c main_call0_v40) (V c main_arg8) (row50257 (V c main_call0_v41))

set_option maxHeartbeats 400000 in
/-- What point t writes back — the columns of its block that lie inside the array — is block t of the row of logits. -/
theorem flushed1_eq (c : Dev nD) (t : Fin cfg1.N) :
    (dat1 V c).flushed 3 t = ((cfg1.win 3).blk t).view.read (Elt Ideal) (logitsOf V c) := by
  show (cfg1.win 3).cut (grid1.coords t) ((dat1 V c).after 3 t) = _
  rw [after1_3]
  obtain ⟨-, -, -, -, -, -, e0, e1, x0, x1⟩ := idx1 t
  funext j
  have hq1 : (j 1).val < win1_3.xsize (grid1.coords t) 1 := (j 1).isLt
  have hq : (j 1).val < 1536 := Nat.lt_of_lt_of_le hq1 (win1_3.xsize_le (grid1.coords t) 1)
  have h0 : (j 0).val < 1 := by
    have h : (j 0).val < win1_3.xsize (grid1.coords t) 0 := (j 0).isLt
    rw [x0] at h; exact h
  have e : win1_3.xinj (grid1.coords t) j = ix2 (0 : Fin 1) (⟨(j 1).val, hq⟩ : Fin 1536) := by
    funext a
    match a with
    | ⟨0, _⟩ => exact Fin.ext (Nat.lt_one_iff.mp (win1_3.xinj (grid1.coords t) j 0).isLt)
    | ⟨1, _⟩ => rfl
  have ht : t.val < 33 := t.isLt
  have hr : t.val * 1536 + (j 1).val < 50257 := by rw [x1] at hq1; omega
  have eE : ((cfg1.win 3).blk t).view.emb j = ix2 (0 : Fin 1) (⟨t.val * 1536 + (j 1).val, hr⟩ : Fin 50257) := by
    funext a
    apply Fin.ext
    match a with
    | ⟨0, _⟩ => show win1_3.index t 0 * 1 + 1 * (j 0).val = 0; rw [e0]; omega
    | ⟨1, _⟩ => show win1_3.index t 1 * 1536 + 1 * (j 1).val = t.val * 1536 + (j 1).val; rw [e1]; omega
  rw [View.read_apply]
  show k1_pay1 (F := Ideal) _ _ _ (win1_3.xinj (grid1.coords t) j) = logitsOf V c (((cfg1.win 3).blk t).view.emb j)
  rw [e, eE, k1_pay1_apply]
  unfold logitsOf Spec.proj row50257
  refine congrArg₂ (· + ·) (Finset.sum_congr rfl fun k _ => ?_) ?_
  · rw [iblk1_0_apply, wblk1_apply V c t ⟨(j 1).val, hq⟩ k ⟨t.val * 1536 + (j 1).val, hr⟩ hq1 rfl]
  · exact bblk1_apply V c t ⟨(j 1).val, hq⟩ ⟨t.val * 1536 + (j 1).val, hr⟩ hq1 rfl

/-- An index of the output row is in point t's block iff its column is among the block's columns inside the array. -/
theorem mem_blk1 (t : Fin cfg1.N) (i : S1x50257.Idx) :
    i ∈ ((cfg1.win 3).blk t).view.set ↔ ∀ a : Fin 2, win1_3.index t a * S1x1536.size a ≤ (i a).val ∧ (i a).val < win1_3.index t a * S1x1536.size a + win1_3.xsize (grid1.coords t) a := by
  show i ∈ ((View.whole main_call0_v42).slice (win1_3.rect t)).set ↔ _
  rw [View.set_slice_whole, Rect.mem_set_unit]
  exact Iff.rfl

/-- Column j of the output row is in the block of point j / 1536. -/
theorem cover1 (i : S1x50257.Idx) : ∃ t : Fin cfg1.N, (cfg1.win 3).flush t = true ∧ i ∈ ((cfg1.win 3).blk t).view.set := by
  have hi0 : (i 0).val < 1 := (i 0).isLt
  have hi1 : (i 1).val < 50257 := (i 1).isLt
  have hN : cfg1.N = 33 := N_1
  refine ⟨⟨(i 1).val / 1536, by rw [hN]; omega⟩, flush1_3 _, ?_⟩
  rw [mem_blk1]
  obtain ⟨-, -, -, -, -, -, e0, e1, x0, x1⟩ := idx1 ⟨(i 1).val / 1536, by rw [hN]; omega⟩
  intro a
  match a with
  | ⟨0, _⟩ => show win1_3.index _ 0 * 1 ≤ (i 0).val ∧ (i 0).val < win1_3.index _ 0 * 1 + win1_3.xsize _ 0; rw [e0, x0]; omega
  | ⟨1, _⟩ =>
    show win1_3.index _ 1 * 1536 ≤ (i 1).val ∧ (i 1).val < win1_3.index _ 1 * 1536 + win1_3.xsize _ 1
    rw [e1, x1]
    show (i 1).val / 1536 * 1536 ≤ (i 1).val ∧ (i 1).val < (i 1).val / 1536 * 1536 + min 1536 (50257 - (i 1).val / 1536 * 1536)
    omega

/-- REGION 1's OUTPUT ARRAY after its run is the row of logits of its input arrays' entry contents. -/
theorem logits_final (c : Dev nD) : (dat1 V c).arrAt 3 cfg1.N = logitsOf V c :=
  (dat1 V c).arrAt_eq_of_cover 3 (logitsOf V c) (fun t _ => flushed1_eq V c t) cover1

/-- REGION 1's OUTPUT ARRAY after its run, with the bias row the reshape of the bias vector: the
    specification's row of logits. -/
theorem logits_eq (c : Dev nD) (bout : FVec Ideal S50257 .f32)
    (h : V c main_call0_v41 = shapeCast S1x50257 bout shapeCasts_S50257_S1x50257) :
    (dat1 V c).arrAt 3 cfg1.N = Spec.proj (V c main_call0_v40) (V c main_arg8) bout := by
  rw [logits_final]
  unfold logitsOf
  rw [h, row50257_shapeCast]

end Cert.KernelIdeal.Blocks

end
-- ==== Proof.ValueKI.lean ====
/-
  The idealized kernel's three results, as the specification's functions of the ten arguments.
  The fold of the buffers' contents is read back item by item: the last stretch of host operations is the
  log-softmax of the logits and the two states' layouts; the logits are what region 1's write-backs leave, the
  projection of the new hidden state; the new states are the cell's operations on the pre-activations region 0's
  write-backs leave and the old cell state; the pre-activations' inputs are the first stretch's results — the embedding
  row, the states as rows, the biases as rows — and the weights, which nothing writes.
-/
import proofs.«116744_j18193481466337_2_alg».proof.Proof.RunKI
import proofs.«116744_j18193481466337_2_alg».proof.Proof.HostRead
import proofs.«116744_j18193481466337_2_alg».proof.Proof.BlocksG
import proofs.«116744_j18193481466337_2_alg».proof.Proof.BlocksL

set_option maxRecDepth 16384

noncomputable section

namespace Cert.KernelIdeal.Hand

open Cert.KernelIdeal Cert.KernelIdeal.Gen Cert.KernelIdeal.HandFrame
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The ten arguments as the launch memory holds them on core `c`. -/
def argsK (c : Dev nD) : Cert.Spec.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-! ## Region 0's entry contents -/

theorem V1_x (c : Dev nD) : V1 m ρ c main_call0_v7 = Spec.xOf (argsK m c).idx (argsK m c).emb :=
  HostRead.x_eq (W0 m ρ c)
theorem V1_h (c : Dev nD) : V1 m ρ c main_call0_v8 = (argsK m c).h := HostRead.h_eq (W0 m ρ c)
theorem V1_c (c : Dev nD) : V1 m ρ c main_call0_v9 = (argsK m c).c := HostRead.c_eq (W0 m ρ c)
theorem V1_bih (c : Dev nD) : V1 m ρ c main_call0_v10 = shapeCast S1x8192 (argsK m c).bih shapeCasts_S8192_S1x8192 :=
  HostRead.bih_eq (W0 m ρ c)
theorem V1_bhh (c : Dev nD) : V1 m ρ c main_call0_v11 = shapeCast S1x8192 (argsK m c).bhh shapeCasts_S8192_S1x8192 :=
  HostRead.bhh_eq (W0 m ρ c)
theorem V1_Wih (c : Dev nD) : V1 m ρ c main_arg4 = (argsK m c).Wih := HostRead.keeps0 (W0 m ρ c) main_arg4 (by decide)
theorem V1_Whh (c : Dev nD) : V1 m ρ c main_arg5 = (argsK m c).Whh := HostRead.keeps0 (W0 m ρ c) main_arg5 (by decide)

/-- The pre-activations region 0 leaves. -/
theorem V2_gates (c : Dev nD) : V2 m ρ c main_call0_v12 = (argsK m c).gates := by
  refine ((hF0 m ρ c 6).symm.trans ?_)
  refine (Blocks.gates_eq (V1 m ρ) c (argsK m c).bih (argsK m c).bhh (V1_bih m ρ c) (V1_bhh m ρ c)).trans ?_
  rw [V1_x, V1_h, V1_Wih, V1_Whh]; rfl

/-- The old cell state as a row is not one of region 0's arrays. -/
theorem V2_c (c : Dev nD) : V2 m ρ c main_call0_v9 = (argsK m c).c :=
  (W2_of_ne m ρ c main_call0_v9 (by decide)).trans (V1_c m ρ c)

/-! ## Region 1's entry contents -/

theorem V3_c (c : Dev nD) : V3 m ρ c main_call0_v38 = (argsK m c).cNew := by
  refine (HostRead.cNew_eq (W2 m ρ c)).trans ?_
  rw [show W2 m ρ c (Proc.devRef .tc main_call0_v12) = (argsK m c).gates from V2_gates m ρ c,
    show W2 m ρ c (Proc.devRef .tc main_call0_v9) = (argsK m c).c from V2_c m ρ c]; rfl
theorem V3_h (c : Dev nD) : V3 m ρ c main_call0_v40 = (argsK m c).hNew := by
  refine (HostRead.hNew_eq (W2 m ρ c)).trans ?_
  rw [show W2 m ρ c (Proc.devRef .tc main_call0_v12) = (argsK m c).gates from V2_gates m ρ c,
    show W2 m ρ c (Proc.devRef .tc main_call0_v9) = (argsK m c).c from V2_c m ρ c]; rfl
theorem V3_bout (c : Dev nD) : V3 m ρ c main_call0_v41 = shapeCast S1x50257 (argsK m c).bout shapeCasts_S50257_S1x50257 := by
  refine (HostRead.bout_eq (W2 m ρ c)).trans ?_
  rw [show W2 m ρ c (Proc.devRef .tc main_arg9) = (argsK m c).bout from
    (W2_of_ne m ρ c main_arg9 (by decide)).trans (HostRead.keeps0 (W0 m ρ c) main_arg9 (by decide))]
theorem V3_Wout (c : Dev nD) : V3 m ρ c main_arg8 = (argsK m c).Wout :=
  (HostRead.keeps1 (W2 m ρ c) main_arg8 (by decide)).trans
    ((W2_of_ne m ρ c main_arg8 (by decide)).trans (HostRead.keeps0 (W0 m ρ c) main_arg8 (by decide)))

/-- The logits region 1 leaves. -/
theorem V4_logits (c : Dev nD) : V4 m ρ c main_call0_v42 = Spec.proj (argsK m c).hNew (argsK m c).Wout (argsK m c).bout := by
  refine ((hF1 m ρ c 3).symm.trans ?_)
  refine (Blocks.logits_eq (V3 m ρ) c (argsK m c).bout (V3_bout m ρ c)).trans ?_
  rw [V3_h, V3_Wout]

/-! ## The results -/

theorem W5_out0 (c : Dev nD) : W5 m ρ c (Proc.devRef .tc main_v0_0) = (argsK m c).out0 := by
  refine (HostRead.out0_eq (W4 m ρ c)).trans ?_
  rw [show W4 m ρ c (Proc.devRef .tc main_call0_v42) = Spec.proj (argsK m c).hNew (argsK m c).Wout (argsK m c).bout from V4_logits m ρ c]; rfl
theorem W5_out1 (c : Dev nD) : W5 m ρ c (Proc.devRef .tc main_v0_1) = (argsK m c).out1 := by
  refine (HostRead.out1_eq (W4 m ρ c)).trans ?_
  rw [show W4 m ρ c (Proc.devRef .tc main_call0_v40) = (argsK m c).hNew from
    ((W4_arr m ρ c 0).trans (((dat1 (V3 m ρ) c).arrAt_in 0 rfl _).trans (A_eq1 (V3 m ρ) c 0))).trans (V3_h m ρ c)]; rfl
theorem W5_out2 (c : Dev nD) : W5 m ρ c (Proc.devRef .tc main_v0_2) = (argsK m c).out2 := by
  refine (HostRead.out2_eq (W4 m ρ c)).trans ?_
  rw [show W4 m ρ c (Proc.devRef .tc main_call0_v38) = (argsK m c).cNew from
    (W4_of_ne m ρ c main_call0_v38 (by decide)).trans (V3_c m ρ c)]; rfl

end Cert.KernelIdeal.Hand

end
-- ==== Proof.ArgsKI.lean ====
/-
  The idealized kernel's arguments end as launched: each argument's buffer read back through the fold of the buffers'
  contents, item by item — a stretch of host operations leaves alone every buffer it does not write, a region every
  buffer that is not one of its windows' arrays, and an input window's array is never written back.
-/
import proofs.«116744_j18193481466337_2_alg».proof.Proof.RunKI
import proofs.«116744_j18193481466337_2_alg».proof.Proof.Gen.KernelIdeal.Regions

set_option maxRecDepth 16384

noncomputable section

namespace Cert.KernelIdeal.Hand

open Cert.KernelIdeal Cert.KernelIdeal.Gen Cert.KernelIdeal.HandFrame
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- `main_arg0` ends as launched: no host operation writes it, and a region reads it through an input window or not at all. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and a region reads it through an input window or not at all. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it, and a region reads it through an input window or not at all. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and a region reads it through an input window or not at all. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and a region reads it through an input window or not at all. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (F := Ideal) (V1 m ρ) c).arrAt_in 2 rfl _).trans (A_eq0 (V1 m ρ) c 2))
    _ = W0 m ρ c (Proc.devRef .tc main_arg4) := StableHlo.after_of_writes_sub hostOps0 _ hostOps0_writes (by decide)
    _ = m ((c : Thread nD τ).loc main_arg4) := rfl

/-- `main_arg5` ends as launched: no host operation writes it, and a region reads it through an input window or not at all. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 3).trans (((dat0 (F := Ideal) (V1 m ρ) c).arrAt_in 3 rfl _).trans (A_eq0 (V1 m ρ) c 3))
    _ = W0 m ρ c (Proc.devRef .tc main_arg5) := StableHlo.after_of_writes_sub hostOps0 _ hostOps0_writes (by decide)
    _ = m ((c : Thread nD τ).loc main_arg5) := rfl

/-- `main_arg6` ends as launched: no host operation writes it, and a region reads it through an input window or not at all. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it, and a region reads it through an input window or not at all. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- `main_arg8` ends as launched: no host operation writes it, and a region reads it through an input window or not at all. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := (W4_arr m ρ c 1).trans (((dat1 (V3 m ρ) c).arrAt_in 1 rfl _).trans (A_eq1 (V3 m ρ) c 1))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- `main_arg9` ends as launched: no host operation writes it, and a region reads it through an input window or not at all. -/
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

end Cert.KernelIdeal.Hand

end
-- ==== Proof.RefOps.lean ====
/-
  The reference program's @main as five stretches of host operations, run one after the other:
  the embedding row and the states as rows; the pre-activations; the cell; the logits; the log-softmax and the
  results' layouts. Every weakly fair execution terminates with each buffer at the fold of the 78 operations over
  the launch memory, which is the fold of the five stretches in order.
-/
import proofs.«116744_j18193481466337_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The token's embedding row with negative entries replaced by zero (x), and the two states as rows: 14 operations. -/
abbrev opsA : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x2048_S1x1_S1x2048_1_0_n_n_0_1_12048 x i) : (⟨S50257x2048, .f32⟩ : BufTy).Contents (Elt F) → (⟨S1x1, .i32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v6) (TRef.of (T := ⟨S1x2048, .f32⟩) main_call0_v0) (TRef.of (T := ⟨S1x2048, .f32⟩) main_v7) maximumf,
    reshape main_arg1 main_v8 rfl shapeCasts_S1x1x2048_S1x2048,
    reshape main_arg2 main_v9 rfl shapeCasts_S1x1x2048_S1x2048 ]

/-- The pre-activations ((x · W_ihᵀ + b_ih) + h · W_hhᵀ) + b_hh: two transposes, two products, two bias rows, three sums. -/
abbrev opsB : List (HloOp τ sig (Elt F)) :=
  [ unary main_arg4 main_v10 ((transpose S2048x8192 [1, 0] · transposes_S8192x2048_S2048x8192_1_0) : (⟨S8192x2048, .f32⟩ : BufTy).Contents (Elt F) → (⟨S2048x8192, .f32⟩ : BufTy).Contents (Elt F)),
    binary main_v7 main_v10 main_v11 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    unary main_arg6 main_v12 (broadcastInDim S1x8192 ![1] bcast_S8192_S1x8192_1 : (⟨S8192, .f32⟩ : BufTy).Contents (Elt F) → (⟨S1x8192, .f32⟩ : BufTy).Contents (Elt F)),
    binary main_v11 main_v12 main_v13 (addf : (⟨S1x8192, .f32⟩ : BufTy).Contents (Elt F) → (⟨S1x8192, .f32⟩ : BufTy).Contents (Elt F) → (⟨S1x8192, .f32⟩ : BufTy).Contents (Elt F)),
    unary main_arg5 main_v14 ((transpose S2048x8192 [1, 0] · transposes_S8192x2048_S2048x8192_1_0) : (⟨S8192x2048, .f32⟩ : BufTy).Contents (Elt F) → (⟨S2048x8192, .f32⟩ : BufTy).Contents (Elt F)),
    binary main_v8 main_v14 main_v15 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    binary main_v13 main_v15 main_v16 (addf : (⟨S1x8192, .f32⟩ : BufTy).Contents (Elt F) → (⟨S1x8192, .f32⟩ : BufTy).Contents (Elt F) → (⟨S1x8192, .f32⟩ : BufTy).Contents (Elt F)),
    unary main_arg7 main_v17 (broadcastInDim S1x8192 ![1] bcast_S8192_S1x8192_1 : (⟨S8192, .f32⟩ : BufTy).Contents (Elt F) → (⟨S1x8192, .f32⟩ : BufTy).Contents (Elt F)),
    binary main_v16 main_v17 main_v18 (addf : (⟨S1x8192, .f32⟩ : BufTy).Contents (Elt F) → (⟨S1x8192, .f32⟩ : BufTy).Contents (Elt F) → (⟨S1x8192, .f32⟩ : BufTy).Contents (Elt F)) ]

/-- The cell: the four gates' slices, three logistic functions and a tanh, the new cell state and the new hidden state. -/
abbrev opsC : List (HloOp τ sig (Elt F)) :=
  [ unary main_v18 main_v19 ((extractStridedSlice S1x2048 ![0, 0] · slices_S1x8192_S1x2048_0_0) : (⟨S1x8192, .f32⟩ : BufTy).Contents (Elt F) → (⟨S1x2048, .f32⟩ : BufTy).Contents (Elt F)),
    unary main_v19 main_v20 (Host.negf : (⟨S1x2048, .f32⟩ : BufTy).Contents (Elt F) → (⟨S1x2048, .f32⟩ : BufTy).Contents (Elt F)),
    unary main_v20 main_v21 (Host.exp : (⟨S1x2048, .f32⟩ : BufTy).Contents (Elt F) → (⟨S1x2048, .f32⟩ : BufTy).Contents (Elt F)),
    nullary main_cst (constant S_ .f32 0x3F800000#32),
    unary main_cst main_v22 (broadcastInDim S1x2048 ![] bcast_S_S1x2048 : (⟨S_, .f32⟩ : BufTy).Contents (Elt F) → (⟨S1x2048, .f32⟩ : BufTy).Contents (Elt F)),
    binary main_v22 main_v21 main_v23 (addf : (⟨S1x2048, .f32⟩ : BufTy).Contents (Elt F) → (⟨S1x2048, .f32⟩ : BufTy).Contents (Elt F) → (⟨S1x2048, .f32⟩ : BufTy).Contents (Elt F)),
    nullary main_cst_1 (constant S_ .f32 0x3F800000#32),
    unary main_cst_1 main_v24 (broadcastInDim S1x2048 ![] bcast_S_S1x2048 : (⟨S_, .f32⟩ : BufTy).Contents (Elt F) → (⟨S1x2048, .f32⟩ : BufTy).Contents (Elt F)),
    binary main_v24 main_v23 main_v25 (Host.divf : (⟨S1x2048, .f32⟩ : BufTy).Contents (Elt F) → (⟨S1x2048, .f32⟩ : BufTy).Contents (Elt F) → (⟨S1x2048, .f32⟩ : BufTy).Contents (Elt F)),
    unary main_v18 main_v26 ((extractStridedSlice S1x2048 ![0, 2048] · slices_S1x8192_S1x2048_0_2048) : (⟨S1x8192, .f32⟩ : BufTy).Contents (Elt F) → (⟨S1x2048, .f32⟩ : BufTy).Contents (Elt F)),
    unary main_v26 main_v27 (Host.negf : (⟨S1x2048, .f32⟩ : BufTy).Contents (Elt F) → (⟨S1x2048, .f32⟩ : BufTy).Contents (Elt F)),
    unary main_v27 main_v28 (Host.exp : (⟨S1x2048, .f32⟩ : BufTy).Contents (Elt F) → (⟨S1x2048, .f32⟩ : BufTy).Contents (Elt F)),
    nullary main_cst_2 (constant S_ .f32 0x3F800000#32),
    unary main_cst_2 main_v29 (broadcastInDim S1x2048 ![] bcast_S_S1x2048 : (⟨S_, .f32⟩ : BufTy).Contents (Elt F) → (⟨S1x2048, .f32⟩ : BufTy).Contents (Elt F)),
    binary main_v29 main_v28 main_v30 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v31 (broadcastInDim S1x2048 ![] bcast_S_S1x2048 : (⟨S_, .f32⟩ : BufTy).Contents (Elt F) → (⟨S1x2048, .f32⟩ : BufTy).Contents (Elt F)),
    binary main_v31 main_v30 main_v32 (Host.divf : (⟨S1x2048, .f32⟩ : BufTy).Contents (Elt F) → (⟨S1x2048, .f32⟩ : BufTy).Contents (Elt F) → (⟨S1x2048, .f32⟩ : BufTy).Contents (Elt F)),
    unary main_v18 main_v33 ((extractStridedSlice S1x2048 ![0, 4096] · slices_S1x8192_S1x2048_0_4096) : (⟨S1x8192, .f32⟩ : BufTy).Contents (Elt F) → (⟨S1x2048, .f32⟩ : BufTy).Contents (Elt F)),
    unary main_v33 main_v34 (Host.tanh : (⟨S1x2048, .f32⟩ : BufTy).Contents (Elt F) → (⟨S1x2048, .f32⟩ : BufTy).Contents (Elt F)),
    unary main_v18 main_v35 ((extractStridedSlice S1x2048 ![0, 6144] · slices_S1x8192_S1x2048_0_6144) : (⟨S1x8192, .f32⟩ : BufTy).Contents (Elt F) → (⟨S1x2048, .f32⟩ : BufTy).Contents (Elt F)),
    unary main_v35 main_v36 (Host.negf : (⟨S1x2048, .f32⟩ : BufTy).Contents (Elt F) → (⟨S1x2048, .f32⟩ : BufTy).Contents (Elt F)),
    unary main_v36 main_v37 (Host.exp : (⟨S1x2048, .f32⟩ : BufTy).Contents (Elt F) → (⟨S1x2048, .f32⟩ : BufTy).Contents (Elt F)),
    nullary main_cst_4 (constant S_ .f32 0x3F800000#32),
    unary main_cst_4 main_v38 (broadcastInDim S1x2048 ![] bcast_S_S1x2048 : (⟨S_, .f32⟩ : BufTy).Contents (Elt F) → (⟨S1x2048, .f32⟩ : BufTy).Contents (Elt F)),
    binary main_v38 main_v37 main_v39 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v40 (broadcastInDim S1x2048 ![] bcast_S_S1x2048 : (⟨S_, .f32⟩ : BufTy).Contents (Elt F) → (⟨S1x2048, .f32⟩ : BufTy).Contents (Elt F)),
    binary main_v40 main_v39 main_v41 (Host.divf : (⟨S1x2048, .f32⟩ : BufTy).Contents (Elt F) → (⟨S1x2048, .f32⟩ : BufTy).Contents (Elt F) → (⟨S1x2048, .f32⟩ : BufTy).Contents (Elt F)),
    binary main_v32 main_v9 main_v42 (mulf : (⟨S1x2048, .f32⟩ : BufTy).Contents (Elt F) → (⟨S1x2048, .f32⟩ : BufTy).Contents (Elt F) → (⟨S1x2048, .f32⟩ : BufTy).Contents (Elt F)),
    binary main_v25 main_v34 main_v43 (mulf : (⟨S1x2048, .f32⟩ : BufTy).Contents (Elt F) → (⟨S1x2048, .f32⟩ : BufTy).Contents (Elt F) → (⟨S1x2048, .f32⟩ : BufTy).Contents (Elt F)),
    binary main_v42 main_v43 main_v44 (addf : (⟨S1x2048, .f32⟩ : BufTy).Contents (Elt F) → (⟨S1x2048, .f32⟩ : BufTy).Contents (Elt F) → (⟨S1x2048, .f32⟩ : BufTy).Contents (Elt F)),
    unary main_v44 main_v45 (Host.tanh : (⟨S1x2048, .f32⟩ : BufTy).Contents (Elt F) → (⟨S1x2048, .f32⟩ : BufTy).Contents (Elt F)),
    binary main_v41 main_v45 main_v46 (mulf : (⟨S1x2048, .f32⟩ : BufTy).Contents (Elt F) → (⟨S1x2048, .f32⟩ : BufTy).Contents (Elt F) → (⟨S1x2048, .f32⟩ : BufTy).Contents (Elt F)) ]

/-- The logits h' · W_outᵀ + b_out: a transpose, a product, the bias row, a sum. -/
abbrev opsD : List (HloOp τ sig (Elt F)) :=
  [ unary main_arg8 main_v47 ((transpose S2048x50257 [1, 0] · transposes_S50257x2048_S2048x50257_1_0) : (⟨S50257x2048, .f32⟩ : BufTy).Contents (Elt F) → (⟨S2048x50257, .f32⟩ : BufTy).Contents (Elt F)),
    binary main_v46 main_v47 main_v48 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    unary main_arg9 main_v49 (broadcastInDim S1x50257 ![1] bcast_S50257_S1x50257_1 : (⟨S50257, .f32⟩ : BufTy).Contents (Elt F) → (⟨S1x50257, .f32⟩ : BufTy).Contents (Elt F)),
    binary main_v48 main_v49 main_v50 (addf : (⟨S1x50257, .f32⟩ : BufTy).Contents (Elt F) → (⟨S1x50257, .f32⟩ : BufTy).Contents (Elt F) → (⟨S1x50257, .f32⟩ : BufTy).Contents (Elt F)) ]

/-- The log-softmax along the row, and the two new states as [1, 1, 2048] arrays. -/
abbrev opsE : List (HloOp τ sig (Elt F)) :=
  [ TRef.nullary (TRef.of (T := ⟨S_, .f32⟩) main_call1_cst) (constant S_ .f32 0xFF800000#32),
    TRef.binary (TRef.of (T := ⟨S1x50257, .f32⟩) main_v50) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v50) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v51) subf,
    unary main_v46 main_v52 (broadcastInDim S1x1x2048 ![1, 2] bcast_S1x2048_S1x1x2048_1_2 : (⟨S1x2048, .f32⟩ : BufTy).Contents (Elt F) → (⟨S1x1x2048, .f32⟩ : BufTy).Contents (Elt F)),
    unary main_v44 main_v53 (broadcastInDim S1x1x2048 ![1, 2] bcast_S1x2048_S1x1x2048_1_2 : (⟨S1x2048, .f32⟩ : BufTy).Contents (Elt F) → (⟨S1x1x2048, .f32⟩ : BufTy).Contents (Elt F)) ]

/-- @main's 78 operations, in order. -/
abbrev ops : List (HloOp τ sig (Elt F)) := opsA ++ (opsB ++ (opsC ++ (opsD ++ opsE)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., reshape_bufs_sub .., reshape_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub ..⟩

end Cert.ReferenceIdeal.RefOps

end
-- ==== Proof.RefRunA.lean ====
/-
  The reference program's run: every weakly fair execution of its @main terminates with each buffer at the fold
  of its 78 operations over the launch memory; that fold is the fold of the five stretches in order; and no
  operation writes an argument, so every argument ends as launched. What each stretch writes is listed, so that a
  buffer a stretch does not write is known to pass through it unchanged.
-/
import proofs.«116744_j18193481466337_2_alg».proof.Proof.RefOps

noncomputable section

namespace Cert.ReferenceIdeal.RefRunA

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The fold of an appended line -/

/-- The fold of two lines run one after the other is the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The fold of the 78 operations is the fold of the five stretches in order. -/
theorem after_ops (V : Valuation τ sig (Elt F)) :
    after (RefOps.ops (F := F)) V = after opsE (after opsD (after opsC (after opsB (after opsA V)))) := by
  show after (opsA ++ (opsB ++ (opsC ++ (opsD ++ opsE)))) V = _
  rw [after_append, after_append, after_append, after_append]

/-! ## What the stretches write -/

/-- The references stretch A's operations write. -/
abbrev opsA_W : List (Ref sig .tc) := [main_c, main_v0, main_v1, main_c_0, main_v2, main_v3, main_v4, main_v5, main_v6, main_call0_cst, main_call0_v0, main_v7, main_v8, main_v9]
set_option maxHeartbeats 1600000 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch A does not write keeps its contents. -/
theorem keepsA (V : Valuation τ sig (Elt F)) (r : Ref sig .tc) (h : r ∉ opsA_W) :
    after (opsA (F := F)) V (Proc.devRef .tc r) = V (Proc.devRef .tc r) :=
  after_of_writes_sub opsA V opsA_writes h

/-- The references stretch B's operations write. -/
abbrev opsB_W : List (Ref sig .tc) := [main_v10, main_v11, main_v12, main_v13, main_v14, main_v15, main_v16, main_v17, main_v18]
set_option maxHeartbeats 1600000 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch B does not write keeps its contents. -/
theorem keepsB (V : Valuation τ sig (Elt F)) (r : Ref sig .tc) (h : r ∉ opsB_W) :
    after (opsB (F := F)) V (Proc.devRef .tc r) = V (Proc.devRef .tc r) :=
  after_of_writes_sub opsB V opsB_writes h

/-- The references stretch C's operations write. -/
abbrev opsC_W : List (Ref sig .tc) := [main_v19, main_v20, main_v21, main_cst, main_v22, main_v23, main_cst_1, main_v24, main_v25, main_v26, main_v27, main_v28, main_cst_2, main_v29, main_v30, main_cst_3, main_v31, main_v32, main_v33, main_v34, main_v35, main_v36, main_v37, main_cst_4, main_v38, main_v39, main_cst_5, main_v40, main_v41, main_v42, main_v43, main_v44, main_v45, main_v46]
set_option maxHeartbeats 1600000 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch C does not write keeps its contents. -/
theorem keepsC (V : Valuation τ sig (Elt F)) (r : Ref sig .tc) (h : r ∉ opsC_W) :
    after (opsC (F := F)) V (Proc.devRef .tc r) = V (Proc.devRef .tc r) :=
  after_of_writes_sub opsC V opsC_writes h

/-- The references stretch D's operations write. -/
abbrev opsD_W : List (Ref sig .tc) := [main_v47, main_v48, main_v49, main_v50]
set_option maxHeartbeats 1600000 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch D does not write keeps its contents. -/
theorem keepsD (V : Valuation τ sig (Elt F)) (r : Ref sig .tc) (h : r ∉ opsD_W) :
    after (opsD (F := F)) V (Proc.devRef .tc r) = V (Proc.devRef .tc r) :=
  after_of_writes_sub opsD V opsD_writes h

/-- The references stretch E's operations write. -/
abbrev opsE_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v51, main_v52, main_v53]
set_option maxHeartbeats 1600000 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch E does not write keeps its contents. -/
theorem keepsE (V : Valuation τ sig (Elt F)) (r : Ref sig .tc) (h : r ∉ opsE_W) :
    after (opsE (F := F)) V (Proc.devRef .tc r) = V (Proc.devRef .tc r) :=
  after_of_writes_sub opsE V opsE_writes h

/-- A buffer no stretch writes is, after the 78 operations, as before them. -/
theorem keeps (V : Valuation τ sig (Elt F)) (r : Ref sig .tc) (hA : r ∉ opsA_W) (hB : r ∉ opsB_W) (hC : r ∉ opsC_W) (hD : r ∉ opsD_W) (hE : r ∉ opsE_W) :
    after (RefOps.ops (F := F)) V (Proc.devRef .tc r) = V (Proc.devRef .tc r) := by
  rw [after_ops]
  exact (keepsE _ r hE).trans <| (keepsD _ r hD).trans <| (keepsC _ r hC).trans <| (keepsB _ r hB).trans (keepsA V r hA)

/-! ## No operation writes an argument -/

theorem arg_keeps0 (V : Valuation τ sig (Elt F)) : after (RefOps.ops (F := F)) V (Proc.devRef .tc main_arg0) = V (Proc.devRef .tc main_arg0) :=
  keeps V main_arg0 (by decide) (by decide) (by decide) (by decide) (by decide)
theorem arg_keeps1 (V : Valuation τ sig (Elt F)) : after (RefOps.ops (F := F)) V (Proc.devRef .tc main_arg1) = V (Proc.devRef .tc main_arg1) :=
  keeps V main_arg1 (by decide) (by decide) (by decide) (by decide) (by decide)
theorem arg_keeps2 (V : Valuation τ sig (Elt F)) : after (RefOps.ops (F := F)) V (Proc.devRef .tc main_arg2) = V (Proc.devRef .tc main_arg2) :=
  keeps V main_arg2 (by decide) (by decide) (by decide) (by decide) (by decide)
theorem arg_keeps3 (V : Valuation τ sig (Elt F)) : after (RefOps.ops (F := F)) V (Proc.devRef .tc main_arg3) = V (Proc.devRef .tc main_arg3) :=
  keeps V main_arg3 (by decide) (by decide) (by decide) (by decide) (by decide)
theorem arg_keeps4 (V : Valuation τ sig (Elt F)) : after (RefOps.ops (F := F)) V (Proc.devRef .tc main_arg4) = V (Proc.devRef .tc main_arg4) :=
  keeps V main_arg4 (by decide) (by decide) (by decide) (by decide) (by decide)
theorem arg_keeps5 (V : Valuation τ sig (Elt F)) : after (RefOps.ops (F := F)) V (Proc.devRef .tc main_arg5) = V (Proc.devRef .tc main_arg5) :=
  keeps V main_arg5 (by decide) (by decide) (by decide) (by decide) (by decide)
theorem arg_keeps6 (V : Valuation τ sig (Elt F)) : after (RefOps.ops (F := F)) V (Proc.devRef .tc main_arg6) = V (Proc.devRef .tc main_arg6) :=
  keeps V main_arg6 (by decide) (by decide) (by decide) (by decide) (by decide)
theorem arg_keeps7 (V : Valuation τ sig (Elt F)) : after (RefOps.ops (F := F)) V (Proc.devRef .tc main_arg7) = V (Proc.devRef .tc main_arg7) :=
  keeps V main_arg7 (by decide) (by decide) (by decide) (by decide) (by decide)
theorem arg_keeps8 (V : Valuation τ sig (Elt F)) : after (RefOps.ops (F := F)) V (Proc.devRef .tc main_arg8) = V (Proc.devRef .tc main_arg8) :=
  keeps V main_arg8 (by decide) (by decide) (by decide) (by decide) (by decide)
theorem arg_keeps9 (V : Valuation τ sig (Elt F)) : after (RefOps.ops (F := F)) V (Proc.devRef .tc main_arg9) = V (Proc.devRef .tc main_arg9) :=
  keeps V main_arg9 (by decide) (by decide) (by decide) (by decide) (by decide)

/-! ## The run -/

/-- From any memory with zero counters, every weakly fair execution of @main terminates, and every final state has
    each buffer at the fold of the 78 operations over its launch contents. -/
theorem run_after (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = after (RefOps.ops (F := F)) (launchContents m c) (Proc.devRef .tc b)) :=
  run_seq scopedRefs_eq scopedSems_eq defs main (fun _ => RefOps.ops) main_eq (fun _ => ops_sub) m ρ

end Cert.ReferenceIdeal.RefRunA

end
-- ==== Proof.RefHost.lean ====
/-
  Three of the reference program's five stretches of host operations are the chains the specification keeps
  as the operations themselves: the input row x and the two states as rows (stretch A), the cell (stretch C),
  and the log-softmax with the two new states' leading unit axis (stretch E). What a buffer holds after such a
  stretch is the composition of the operations that lead to it, applied to what the buffers it starts from
  held: that composition is the specification's function, operation for operation. The shapes and the side
  facts of the two programs are the same literals and proofs of the same statements, so the two spellings agree.
  All statements hold for every contents the stretch may start from; the reductions over the row of 50257 are
  compared as they stand and never opened.
-/
import proofs.«116744_j18193481466337_2_alg».proof.Proof.Spec
import proofs.«116744_j18193481466337_2_alg».proof.Proof.RefOps

noncomputable section

namespace Cert.ReferenceIdeal.RefHost

open Idealize.ShloMosaic Idealize.ShloMosaic.TcCoe Idealize.ShloMosaic.StableHlo Idealize.SL.Sem
open Cert.ReferenceIdeal Cert.ReferenceIdeal.Gen Cert.ReferenceIdeal.RefOps

/-! ## Stretch A -/

set_option maxHeartbeats 400000 in
/-- The input row: the embedding row the (wrapped) index selects, negative entries replaced by zero. -/
theorem xA_eq (V : Valuation τ sig (Elt Ideal)) :
    (after (opsA (F := Ideal)) V (Proc.devRef .tc main_v7) : (⟨Cert.KernelIdeal.S1x2048, .f32⟩ : BufTy).Contents (Elt Ideal))
      = Cert.Spec.xOf (V (Proc.devRef .tc main_arg0)) (V (Proc.devRef .tc main_arg3)) := by
  after_results
  rfl

set_option maxHeartbeats 400000 in
/-- The old hidden state as a row. -/
theorem hA_eq (V : Valuation τ sig (Elt Ideal)) :
    (after (opsA (F := Ideal)) V (Proc.devRef .tc main_v8) : (⟨Cert.KernelIdeal.S1x2048, .f32⟩ : BufTy).Contents (Elt Ideal))
      = shapeCast Cert.KernelIdeal.S1x2048 (V (Proc.devRef .tc main_arg1)) Cert.KernelIdeal.Gen.shapeCasts_S1x1x2048_S1x2048 := by
  after_results
  rfl

set_option maxHeartbeats 400000 in
/-- The old cell state as a row. -/
theorem cA_eq (V : Valuation τ sig (Elt Ideal)) :
    (after (opsA (F := Ideal)) V (Proc.devRef .tc main_v9) : (⟨Cert.KernelIdeal.S1x2048, .f32⟩ : BufTy).Contents (Elt Ideal))
      = shapeCast Cert.KernelIdeal.S1x2048 (V (Proc.devRef .tc main_arg2)) Cert.KernelIdeal.Gen.shapeCasts_S1x1x2048_S1x2048 := by
  after_results
  rfl

/-! ## Stretch C -/

set_option maxHeartbeats 1000000 in
/-- The new cell state. -/
theorem cC_eq (V : Valuation τ sig (Elt Ideal)) :
    (after (opsC (F := Ideal)) V (Proc.devRef .tc main_v44) : (⟨Cert.KernelIdeal.S1x2048, .f32⟩ : BufTy).Contents (Elt Ideal))
      = Cert.Spec.cellC (V (Proc.devRef .tc main_v18)) (V (Proc.devRef .tc main_v9)) := by
  after_results_simp
  rfl

set_option maxHeartbeats 1000000 in
/-- The new hidden state. -/
theorem hC_eq (V : Valuation τ sig (Elt Ideal)) :
    (after (opsC (F := Ideal)) V (Proc.devRef .tc main_v46) : (⟨Cert.KernelIdeal.S1x2048, .f32⟩ : BufTy).Contents (Elt Ideal))
      = Cert.Spec.cellH (V (Proc.devRef .tc main_v18)) (V (Proc.devRef .tc main_v9)) := by
  after_results_simp
  rfl

/-! ## Stretch E -/

/-- Contents carried to a buffer's own type and back are the contents. -/
theorem ofBuf_toBuf {T : BufTy} (x : TRef sig T) (v : T.Contents (Elt Ideal)) : x.ofBuf (x.toBuf v) = v := by
  unfold TRef.ofBuf TRef.toBuf
  rw [cast_cast, cast_eq]

/-- The result buffer's type is the row's: carrying contents to it changes nothing. -/
theorem toBuf_out0 (v : (⟨S1x50257, .f32⟩ : BufTy).Contents (Elt Ideal)) :
    (TRef.of main_v51 : TRef sig ⟨S1x50257, .f32⟩).toBuf v = v := rfl

/-- The logits' buffer's type is the row's: carrying contents from it changes nothing. -/
theorem ofBuf_logits (v : (main_v50 : Ref sig .tc).ty.Contents (Elt Ideal)) :
    (TRef.of main_v50 : TRef sig ⟨S1x50257, .f32⟩).ofBuf v = v := rfl

set_option maxRecDepth 65536 in
set_option maxHeartbeats 1000000 in
/-- Result 0: the log-softmax of the logits. The two sides are the same operations: the reductions over the
    row are compared as they stand, never opened. -/
theorem out0E_eq (V : Valuation τ sig (Elt Ideal)) :
    (after (opsE (F := Ideal)) V (Proc.devRef .tc main_v51) : (⟨Cert.KernelIdeal.S1x50257, .f32⟩ : BufTy).Contents (Elt Ideal))
      = Cert.Spec.logSoftmax (V (Proc.devRef .tc main_v50)) := by
  after_results
  unfold Cert.Spec.logSoftmax Cert.Spec.rowMax
  generalize V (Proc.devRef .tc main_v50) = l
  simp only [ofBuf_toBuf]
  rw [toBuf_out0]
  simp only [ofBuf_logits]

set_option maxHeartbeats 1000000 in
/-- Result 1: the new hidden state with its leading unit axis. -/
theorem out1E_eq (V : Valuation τ sig (Elt Ideal)) :
    (after (opsE (F := Ideal)) V (Proc.devRef .tc main_v52) : (⟨Cert.KernelIdeal.S1x1x2048, .f32⟩ : BufTy).Contents (Elt Ideal))
      = broadcastInDim Cert.KernelIdeal.S1x1x2048 ![1, 2] Cert.KernelIdeal.Gen.bcast_S1x2048_S1x1x2048_1_2 (V (Proc.devRef .tc main_v46)) := by
  after_results

set_option maxHeartbeats 1000000 in
/-- Result 2: the new cell state with its leading unit axis. -/
theorem out2E_eq (V : Valuation τ sig (Elt Ideal)) :
    (after (opsE (F := Ideal)) V (Proc.devRef .tc main_v53) : (⟨Cert.KernelIdeal.S1x1x2048, .f32⟩ : BufTy).Contents (Elt Ideal))
      = broadcastInDim Cert.KernelIdeal.S1x1x2048 ![1, 2] Cert.KernelIdeal.Gen.bcast_S1x2048_S1x1x2048_1_2 (V (Proc.devRef .tc main_v44)) := by
  after_results

end Cert.ReferenceIdeal.RefHost

end
-- ==== Proof.RefLaw.lean ====
/-
  The two stretches of the reference program that are not spelt as the specification spells them.
  The second stretch computes the row of pre-activations as ((x · W_ihᵀ + b_ih) + h · W_hhᵀ) + b_hh: read at a
  column, each product of a row with a transposed matrix is a sum over the contracted axis, each bias broadcast
  along the row is the bias at the column, and the specification's ((Σ x·W_ih + Σ h·W_hh) + b_ih) + b_hh adds the same
  four terms in another order — (a + p) + b = (a + b) + p holds in the extended reals, a commutative additive
  monoid, with no finiteness hypothesis. The fourth stretch computes the logits h' · W_outᵀ + b_out, the
  specification's as they stand.
-/
import proofs.«116744_j18193481466337_2_alg».proof.Proof.Spec
import proofs.«116744_j18193481466337_2_alg».proof.Proof.RefOps
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.RefLaw

open Cert.ReferenceIdeal Cert.ReferenceIdeal.Gen Cert.ReferenceIdeal.RefOps Idealize.ShloMosaic Idealize.ShloMosaic.TcCoe
  Idealize.ShloMosaic.StableHlo Idealize.SL.Sem Idealize.ShloMosaic.ValueIdx

/-! ## The operations read at an index -/

/-- The operand indices of a row-by-matrix product [1, 2048] · [2048, 8192] at output column j and contraction
    coordinate k: (0, k) on the left, (k, j) on the right. -/
theorem lhsG_0 (i : S1x8192.Idx) (q : dot_S1x2048_S2048x8192_S1x8192_1_0_0_1_n_n.contr.Idx) :
    (dot_S1x2048_S2048x8192_S1x8192_1_0_0_1_n_n.lhsIdx i q 0).val = (i 0).val := by
  unfold DotDims.lhsIdx
  rw [dif_neg (show ¬(0 : Fin S1x2048.rank) ∈ dot_S1x2048_S2048x8192_S1x8192_1_0_0_1_n_n.lhsBatch by decide), dif_pos (show (0 : Fin S1x2048.rank) ∈ dot_S1x2048_S2048x8192_S1x8192_1_0_0_1_n_n.lhsNonContracting by decide)]
  rfl
theorem lhsG_1 (i : S1x8192.Idx) (q : dot_S1x2048_S2048x8192_S1x8192_1_0_0_1_n_n.contr.Idx) :
    (dot_S1x2048_S2048x8192_S1x8192_1_0_0_1_n_n.lhsIdx i q 1).val = (q ⟨0, by decide⟩).val :=
  dot_S1x2048_S2048x8192_S1x8192_1_0_0_1_n_n.lhsIdx_val_of_single rfl i q
theorem rhsG_0 (i : S1x8192.Idx) (q : dot_S1x2048_S2048x8192_S1x8192_1_0_0_1_n_n.contr.Idx) :
    (dot_S1x2048_S2048x8192_S1x8192_1_0_0_1_n_n.rhsIdx i q 0).val = (q ⟨0, by decide⟩).val :=
  dot_S1x2048_S2048x8192_S1x8192_1_0_0_1_n_n.rhsIdx_val_of_single rfl i q
theorem rhsG_1 (i : S1x8192.Idx) (q : dot_S1x2048_S2048x8192_S1x8192_1_0_0_1_n_n.contr.Idx) :
    (dot_S1x2048_S2048x8192_S1x8192_1_0_0_1_n_n.rhsIdx i q 1).val = (i 1).val := by
  unfold DotDims.rhsIdx
  rw [dif_neg (show ¬(1 : Fin S2048x8192.rank) ∈ dot_S1x2048_S2048x8192_S1x8192_1_0_0_1_n_n.rhsBatch by decide), dif_pos (show (1 : Fin S2048x8192.rank) ∈ dot_S1x2048_S2048x8192_S1x8192_1_0_0_1_n_n.rhsNonContracting by decide)]
  rfl

/-- The same for the product [1, 2048] · [2048, 50257]. -/
theorem lhsL_0 (i : S1x50257.Idx) (q : dot_S1x2048_S2048x50257_S1x50257_1_0_0_1_n_n.contr.Idx) :
    (dot_S1x2048_S2048x50257_S1x50257_1_0_0_1_n_n.lhsIdx i q 0).val = (i 0).val := by
  unfold DotDims.lhsIdx
  rw [dif_neg (show ¬(0 : Fin S1x2048.rank) ∈ dot_S1x2048_S2048x50257_S1x50257_1_0_0_1_n_n.lhsBatch by decide), dif_pos (show (0 : Fin S1x2048.rank) ∈ dot_S1x2048_S2048x50257_S1x50257_1_0_0_1_n_n.lhsNonContracting by decide)]
  rfl
theorem lhsL_1 (i : S1x50257.Idx) (q : dot_S1x2048_S2048x50257_S1x50257_1_0_0_1_n_n.contr.Idx) :
    (dot_S1x2048_S2048x50257_S1x50257_1_0_0_1_n_n.lhsIdx i q 1).val = (q ⟨0, by decide⟩).val :=
  dot_S1x2048_S2048x50257_S1x50257_1_0_0_1_n_n.lhsIdx_val_of_single rfl i q
theorem rhsL_0 (i : S1x50257.Idx) (q : dot_S1x2048_S2048x50257_S1x50257_1_0_0_1_n_n.contr.Idx) :
    (dot_S1x2048_S2048x50257_S1x50257_1_0_0_1_n_n.rhsIdx i q 0).val = (q ⟨0, by decide⟩).val :=
  dot_S1x2048_S2048x50257_S1x50257_1_0_0_1_n_n.rhsIdx_val_of_single rfl i q
theorem rhsL_1 (i : S1x50257.Idx) (q : dot_S1x2048_S2048x50257_S1x50257_1_0_0_1_n_n.contr.Idx) :
    (dot_S1x2048_S2048x50257_S1x50257_1_0_0_1_n_n.rhsIdx i q 1).val = (i 1).val := by
  unfold DotDims.rhsIdx
  rw [dif_neg (show ¬(1 : Fin S2048x50257.rank) ∈ dot_S1x2048_S2048x50257_S1x50257_1_0_0_1_n_n.rhsBatch by decide), dif_pos (show (1 : Fin S2048x50257.rank) ∈ dot_S1x2048_S2048x50257_S1x50257_1_0_0_1_n_n.rhsNonContracting by decide)]
  rfl

/-- A row times the transpose of a [8192, 2048] matrix, at column j: Σₖ row k * matrix j k. -/
theorem dotT_G (x : FVec Ideal S1x2048 .f32) (W : FVec Ideal S8192x2048 .f32)
    (i : S1x8192.Idx) :
    Host.dotGeneral dot_S1x2048_S2048x8192_S1x8192_1_0_0_1_n_n none x
        (transpose S2048x8192 [1, 0] W transposes_S8192x2048_S2048x8192_1_0) i
      = ∑ k : Fin 2048, x (ix2 (0 : Fin 1) k) * W (ix2 (i 1 : Fin 8192) k) := by
  generalize hy : transpose S2048x8192 [1, 0] W transposes_S8192x2048_S2048x8192_1_0 = y
  simp only [Host.dotGeneral]
  rw [Ideal.dotGeneral_apply, ← Equiv.sum_comp (contrEquiv1 dot_S1x2048_S2048x8192_S1x8192_1_0_0_1_n_n 2048 rfl rfl).symm]
  refine Finset.sum_congr rfl fun k _ => ?_
  have hk := contrEquiv1_symm_val dot_S1x2048_S2048x8192_S1x8192_1_0_0_1_n_n 2048 rfl rfl k
  have el : dot_S1x2048_S2048x8192_S1x8192_1_0_0_1_n_n.lhsIdx i ((contrEquiv1 dot_S1x2048_S2048x8192_S1x8192_1_0_0_1_n_n 2048 rfl rfl).symm k) = ix2 (0 : Fin 1) k := funext fun a => Fin.ext (by
    match a with
    | ⟨0, _⟩ => exact (lhsG_0 _ _).trans (by have h := idx2_lt0 i; show (i 0).val = 0; omega)
    | ⟨1, _⟩ => exact (lhsG_1 _ _).trans hk)
  have er : dot_S1x2048_S2048x8192_S1x8192_1_0_0_1_n_n.rhsIdx i ((contrEquiv1 dot_S1x2048_S2048x8192_S1x8192_1_0_0_1_n_n 2048 rfl rfl).symm k) = ix2 k (i 1 : Fin 8192) := funext fun a => Fin.ext (by
    match a with
    | ⟨0, _⟩ => exact (rhsG_0 _ _).trans hk
    | ⟨1, _⟩ => exact rhsG_1 _ _)
  rw [el, er]
  subst hy
  exact congrArg (x (ix2 (0 : Fin 1) k) * ·)
    (transpose_apply [1, 0] W transposes_S8192x2048_S2048x8192_1_0 (ix2 k (i 1 : Fin 8192)) (ix2 (i 1 : Fin 8192) k)
      (fun b => match b with
        | ⟨0, _⟩ => rfl
        | ⟨1, _⟩ => rfl))

/-- A row times the transpose of a [50257, 2048] matrix, at column j. -/
theorem dotT_L (x : FVec Ideal S1x2048 .f32) (W : FVec Ideal S50257x2048 .f32)
    (i : S1x50257.Idx) :
    Host.dotGeneral dot_S1x2048_S2048x50257_S1x50257_1_0_0_1_n_n none x
        (transpose S2048x50257 [1, 0] W transposes_S50257x2048_S2048x50257_1_0) i
      = ∑ k : Fin 2048, x (ix2 (0 : Fin 1) k) * W (ix2 (i 1 : Fin 50257) k) := by
  generalize hy : transpose S2048x50257 [1, 0] W transposes_S50257x2048_S2048x50257_1_0 = y
  simp only [Host.dotGeneral]
  rw [Ideal.dotGeneral_apply, ← Equiv.sum_comp (contrEquiv1 dot_S1x2048_S2048x50257_S1x50257_1_0_0_1_n_n 2048 rfl rfl).symm]
  refine Finset.sum_congr rfl fun k _ => ?_
  have hk := contrEquiv1_symm_val dot_S1x2048_S2048x50257_S1x50257_1_0_0_1_n_n 2048 rfl rfl k
  have el : dot_S1x2048_S2048x50257_S1x50257_1_0_0_1_n_n.lhsIdx i ((contrEquiv1 dot_S1x2048_S2048x50257_S1x50257_1_0_0_1_n_n 2048 rfl rfl).symm k) = ix2 (0 : Fin 1) k := funext fun a => Fin.ext (by
    match a with
    | ⟨0, _⟩ => exact (lhsL_0 _ _).trans (by have h := idx2_lt0 i; show (i 0).val = 0; omega)
    | ⟨1, _⟩ => exact (lhsL_1 _ _).trans hk)
  have er : dot_S1x2048_S2048x50257_S1x50257_1_0_0_1_n_n.rhsIdx i ((contrEquiv1 dot_S1x2048_S2048x50257_S1x50257_1_0_0_1_n_n 2048 rfl rfl).symm k) = ix2 k (i 1 : Fin 50257) := funext fun a => Fin.ext (by
    match a with
    | ⟨0, _⟩ => exact (rhsL_0 _ _).trans hk
    | ⟨1, _⟩ => exact rhsL_1 _ _)
  rw [el, er]
  subst hy
  exact congrArg (x (ix2 (0 : Fin 1) k) * ·)
    (transpose_apply [1, 0] W transposes_S50257x2048_S2048x50257_1_0 (ix2 k (i 1 : Fin 50257)) (ix2 (i 1 : Fin 50257) k)
      (fun b => match b with
        | ⟨0, _⟩ => rfl
        | ⟨1, _⟩ => rfl))

/-- A bias vector broadcast along the row reads the vector at the column. -/
theorem bcast_G (b : FVec Ideal S8192 .f32) (i : S1x8192.Idx) :
    broadcastInDim S1x8192 ![1] bcast_S8192_S1x8192_1 b i = b (ix1 (i 1 : Fin 8192)) :=
  broadcastInDim_apply _ bcast_S8192_S1x8192_1 b i (ix1 (i 1 : Fin 8192)) (fun a => match a with
    | ⟨0, _⟩ => by show (i 1).val = if (8192 : Nat) = 1 then 0 else (i 1).val; rw [if_neg (by decide)])

theorem bcast_L (b : FVec Ideal S50257 .f32) (i : S1x50257.Idx) :
    broadcastInDim S1x50257 ![1] bcast_S50257_S1x50257_1 b i = b (ix1 (i 1 : Fin 50257)) :=
  broadcastInDim_apply _ bcast_S50257_S1x50257_1 b i (ix1 (i 1 : Fin 50257)) (fun a => match a with
    | ⟨0, _⟩ => by show (i 1).val = if (50257 : Nat) = 1 then 0 else (i 1).val; rw [if_neg (by decide)])

/-! ## The two laws on the operations -/

/-- ((x · W_ihᵀ + b_ih) + h · W_hhᵀ) + b_hh is the specification's row of pre-activations: at each column the four
    terms are the same and are added in another order, (a + p) + b = (a + b) + p in the extended reals. -/
theorem preact_ops (x h : FVec Ideal S1x2048 .f32) (Wih Whh : FVec Ideal S8192x2048 .f32)
    (bih bhh : FVec Ideal S8192 .f32) :
    addf (addf (addf (Host.dotGeneral dot_S1x2048_S2048x8192_S1x8192_1_0_0_1_n_n none x
              (transpose S2048x8192 [1, 0] Wih transposes_S8192x2048_S2048x8192_1_0))
            (broadcastInDim S1x8192 ![1] bcast_S8192_S1x8192_1 bih))
          (Host.dotGeneral dot_S1x2048_S2048x8192_S1x8192_1_0_0_1_n_n none h
            (transpose S2048x8192 [1, 0] Whh transposes_S8192x2048_S2048x8192_1_0)))
        (broadcastInDim S1x8192 ![1] bcast_S8192_S1x8192_1 bhh)
      = Cert.Spec.preact x h Wih Whh bih bhh := by
  funext i
  show ((Host.dotGeneral dot_S1x2048_S2048x8192_S1x8192_1_0_0_1_n_n none x
              (transpose S2048x8192 [1, 0] Wih transposes_S8192x2048_S2048x8192_1_0) i
            + broadcastInDim S1x8192 ![1] bcast_S8192_S1x8192_1 bih i)
          + Host.dotGeneral dot_S1x2048_S2048x8192_S1x8192_1_0_0_1_n_n none h
            (transpose S2048x8192 [1, 0] Whh transposes_S8192x2048_S2048x8192_1_0) i)
        + broadcastInDim S1x8192 ![1] bcast_S8192_S1x8192_1 bhh i = _
  rw [dotT_G x Wih i, dotT_G h Whh i, bcast_G bih i, bcast_G bhh i]
  exact congrArg (· + bhh (ix1 (i 1 : Fin 8192))) (add_right_comm _ _ _)

/-- h' · W_outᵀ + b_out is the specification's row of logits. -/
theorem proj_ops (h' : FVec Ideal S1x2048 .f32) (Wout : FVec Ideal S50257x2048 .f32)
    (bout : FVec Ideal S50257 .f32) :
    addf (Host.dotGeneral dot_S1x2048_S2048x50257_S1x50257_1_0_0_1_n_n none h'
            (transpose S2048x50257 [1, 0] Wout transposes_S50257x2048_S2048x50257_1_0))
        (broadcastInDim S1x50257 ![1] bcast_S50257_S1x50257_1 bout)
      = Cert.Spec.proj h' Wout bout := by
  funext i
  show Host.dotGeneral dot_S1x2048_S2048x50257_S1x50257_1_0_0_1_n_n none h'
            (transpose S2048x50257 [1, 0] Wout transposes_S50257x2048_S2048x50257_1_0) i
        + broadcastInDim S1x50257 ![1] bcast_S50257_S1x50257_1 bout i = _
  rw [dotT_L h' Wout i, bcast_L bout i]
  rfl

/-! ## The two stretches -/

set_option maxHeartbeats 400000 in
/-- After the second stretch the row of pre-activations is the specification's, of what x, h, the weights and the
    biases held before it. -/
theorem preact_eq (V : Valuation τ sig (Elt Ideal)) :
    (after (opsB (F := Ideal)) V (Proc.devRef .tc main_v18) : (⟨S1x8192, .f32⟩ : BufTy).Contents (Elt Ideal))
      = Cert.Spec.preact (V (Proc.devRef .tc main_v7)) (V (Proc.devRef .tc main_v8)) (V (Proc.devRef .tc main_arg4))
          (V (Proc.devRef .tc main_arg5)) (V (Proc.devRef .tc main_arg6)) (V (Proc.devRef .tc main_arg7)) := by
  after_results
  exact preact_ops _ _ _ _ _ _

set_option maxHeartbeats 400000 in
/-- After the fourth stretch the row of logits is the specification's, of what the new hidden state, the output
    weights and the output bias held before it. -/
theorem proj_eq (V : Valuation τ sig (Elt Ideal)) :
    (after (opsD (F := Ideal)) V (Proc.devRef .tc main_v50) : (⟨S1x50257, .f32⟩ : BufTy).Contents (Elt Ideal))
      = Cert.Spec.proj (V (Proc.devRef .tc main_v46)) (V (Proc.devRef .tc main_arg8)) (V (Proc.devRef .tc main_arg9)) := by
  after_results
  exact proj_ops _ _ _

end Cert.ReferenceIdeal.RefLaw

end
-- ==== Proof.RefSpec.lean ====
/-
  The reference's run ends with the specification's three results.
  Its 78 host operations run as five stretches; each stretch's results are the specification's chains of the
  stretch's inputs (the embedding row and the states as rows; the pre-activations, after regrouping their four
  terms; the cell; the logits; the log-softmax and the results' layouts), and a stretch leaves alone what it does not
  write — so the fold of the five stretches over the launch memory holds, at the three results, the specification's
  functions of the ten arguments, and at the arguments what was launched.
-/
import proofs.«116744_j18193481466337_2_alg».proof.Proof.Spec
import proofs.«116744_j18193481466337_2_alg».proof.Proof.RefOps
import proofs.«116744_j18193481466337_2_alg».proof.Proof.RefRunA
import proofs.«116744_j18193481466337_2_alg».proof.Proof.RefHost
import proofs.«116744_j18193481466337_2_alg».proof.Proof.RefLaw

set_option maxRecDepth 16384

noncomputable section

namespace Cert.ReferenceIdeal.RefSpec

open Cert.ReferenceIdeal Cert.ReferenceIdeal.Gen Cert.ReferenceIdeal.RefOps
open Idealize.ShloMosaic Idealize.ShloMosaic.TcCoe Idealize.ShloMosaic.StableHlo Idealize.SL.Sem

/-- The ten arguments as a valuation holds them. -/
def argsV (V : Valuation τ sig (Elt Ideal)) : Cert.Spec.Args :=
  ⟨V (Proc.devRef .tc main_arg0), V (Proc.devRef .tc main_arg1), V (Proc.devRef .tc main_arg2), V (Proc.devRef .tc main_arg3),
    V (Proc.devRef .tc main_arg4), V (Proc.devRef .tc main_arg5), V (Proc.devRef .tc main_arg6), V (Proc.devRef .tc main_arg7),
    V (Proc.devRef .tc main_arg8), V (Proc.devRef .tc main_arg9)⟩

/-- The ten arguments as the launch memory holds them on core `c`. -/
def argsOf (m : (ℓ : Loc nD τ sig) → Buf (Elt Ideal) ℓ) (c : Dev nD) : Cert.Spec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9)⟩

variable (V : Valuation τ sig (Elt Ideal))

/-- The buffers after each stretch. -/
abbrev VA : Valuation τ sig (Elt Ideal) := after (opsA (F := Ideal)) V
abbrev VB : Valuation τ sig (Elt Ideal) := after (opsB (F := Ideal)) (VA V)
abbrev VC : Valuation τ sig (Elt Ideal) := after (opsC (F := Ideal)) (VB V)
abbrev VD : Valuation τ sig (Elt Ideal) := after (opsD (F := Ideal)) (VC V)
abbrev VE : Valuation τ sig (Elt Ideal) := after (opsE (F := Ideal)) (VD V)

/-- The pre-activations. -/
theorem VB_gates : VB V (Proc.devRef .tc main_v18) = (argsV V).gates := by
  refine (RefLaw.preact_eq (VA V)).trans ?_
  rw [show VA V (Proc.devRef .tc main_v7) = Cert.Spec.xOf (argsV V).idx (argsV V).emb from RefHost.xA_eq V,
    show VA V (Proc.devRef .tc main_v8) = (argsV V).h from RefHost.hA_eq V,
    show VA V (Proc.devRef .tc main_arg4) = (argsV V).Wih from RefRunA.keepsA V main_arg4 (by decide),
    show VA V (Proc.devRef .tc main_arg5) = (argsV V).Whh from RefRunA.keepsA V main_arg5 (by decide),
    show VA V (Proc.devRef .tc main_arg6) = (argsV V).bih from RefRunA.keepsA V main_arg6 (by decide),
    show VA V (Proc.devRef .tc main_arg7) = (argsV V).bhh from RefRunA.keepsA V main_arg7 (by decide)]
  rfl

/-- The old cell state as a row reaches the cell unchanged. -/
theorem VB_c : VB V (Proc.devRef .tc main_v9) = (argsV V).c :=
  (RefRunA.keepsB (VA V) main_v9 (by decide)).trans (RefHost.cA_eq V)

/-- The new states. -/
theorem VC_c : VC V (Proc.devRef .tc main_v44) = (argsV V).cNew := by
  refine (RefHost.cC_eq (VB V)).trans ?_
  rw [show VB V (Proc.devRef .tc main_v18) = (argsV V).gates from VB_gates V,
    show VB V (Proc.devRef .tc main_v9) = (argsV V).c from VB_c V]; rfl
theorem VC_h : VC V (Proc.devRef .tc main_v46) = (argsV V).hNew := by
  refine (RefHost.hC_eq (VB V)).trans ?_
  rw [show VB V (Proc.devRef .tc main_v18) = (argsV V).gates from VB_gates V,
    show VB V (Proc.devRef .tc main_v9) = (argsV V).c from VB_c V]; rfl

/-- The logits. -/
theorem VD_logits : VD V (Proc.devRef .tc main_v50) = Cert.Spec.proj (argsV V).hNew (argsV V).Wout (argsV V).bout := by
  refine (RefLaw.proj_eq (VC V)).trans ?_
  rw [show VC V (Proc.devRef .tc main_v46) = (argsV V).hNew from VC_h V,
    show VC V (Proc.devRef .tc main_arg8) = (argsV V).Wout from
      (RefRunA.keepsC (VB V) main_arg8 (by decide)).trans ((RefRunA.keepsB (VA V) main_arg8 (by decide)).trans (RefRunA.keepsA V main_arg8 (by decide))),
    show VC V (Proc.devRef .tc main_arg9) = (argsV V).bout from
      (RefRunA.keepsC (VB V) main_arg9 (by decide)).trans ((RefRunA.keepsB (VA V) main_arg9 (by decide)).trans (RefRunA.keepsA V main_arg9 (by decide)))]

/-- The three results. -/
theorem VE_out0 : VE V (Proc.devRef .tc main_v51) = (argsV V).out0 := by
  refine (RefHost.out0E_eq (VD V)).trans ?_
  rw [show VD V (Proc.devRef .tc main_v50) = Cert.Spec.proj (argsV V).hNew (argsV V).Wout (argsV V).bout from VD_logits V]; rfl
theorem VE_out1 : VE V (Proc.devRef .tc main_v52) = (argsV V).out1 := by
  refine (RefHost.out1E_eq (VD V)).trans ?_
  rw [show VD V (Proc.devRef .tc main_v46) = (argsV V).hNew from (RefRunA.keepsD (VC V) main_v46 (by decide)).trans (VC_h V)]; rfl
theorem VE_out2 : VE V (Proc.devRef .tc main_v53) = (argsV V).out2 := by
  refine (RefHost.out2E_eq (VD V)).trans ?_
  rw [show VD V (Proc.devRef .tc main_v44) = (argsV V).cNew from (RefRunA.keepsD (VC V) main_v44 (by decide)).trans (VC_c V)]; rfl

/-- Every weakly fair execution of the reference terminates with the three results at the specification's functions
    of the launched arguments, and the arguments as launched. -/
theorem run_spec (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v51) = (argsOf m c).out0
      ∧ r.2.mem ((c.tc : Thread nD τ).loc main_v52) = (argsOf m c).out1
      ∧ r.2.mem ((c.tc : Thread nD τ).loc main_v53) = (argsOf m c).out2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (RefRunA.run_after (F := Ideal) m ρ)
  have hV : ∀ b : Ref sig .tc, r.2.mem ((c.tc : Thread nD τ).loc b) = VE (launchContents m c) (Proc.devRef .tc b) :=
    fun b => (h c b).trans (congrFun (RefRunA.after_ops (launchContents m c)) _)
  have ha : argsV (launchContents m c) = argsOf m c := rfl
  exact ⟨(hV main_v51).trans ((VE_out0 _).trans (by rw [ha])), (hV main_v52).trans ((VE_out1 _).trans (by rw [ha])),
    (hV main_v53).trans ((VE_out2 _).trans (by rw [ha])),
    (h c main_arg0).trans (RefRunA.arg_keeps0 _),
    (h c main_arg1).trans (RefRunA.arg_keeps1 _),
    (h c main_arg2).trans (RefRunA.arg_keeps2 _),
    (h c main_arg3).trans (RefRunA.arg_keeps3 _),
    (h c main_arg4).trans (RefRunA.arg_keeps4 _),
    (h c main_arg5).trans (RefRunA.arg_keeps5 _),
    (h c main_arg6).trans (RefRunA.arg_keeps6 _),
    (h c main_arg7).trans (RefRunA.arg_keeps7 _),
    (h c main_arg8).trans (RefRunA.arg_keeps8 _),
    (h c main_arg9).trans (RefRunA.arg_keeps9 _)⟩

end Cert.ReferenceIdeal.RefSpec

end
-- ==== Proof.Claims.lean ====
/-
  The five claims.
  The frames of the two kernel programs: every window's staging contents left unnamed in region 1 (its last block
  overhangs the array), exact in region 0; the arguments read back at the end. The reference's frame: its run with
  the results dropped. The idealization rewrote nothing. The two idealized programs agree: both results are the
  specification's functions of the arguments — the kernel's through its two regions' block-by-block write-backs and
  the host operations around them, the reference's through its operations one by one, the two spellings of the
  pre-activations joined by regrouping a four-term sum of extended reals.
-/
import proofs.«116744_j18193481466337_2_alg».proof.Defs
import proofs.«116744_j18193481466337_2_alg».proof.Proof.FrameK
import proofs.«116744_j18193481466337_2_alg».proof.Proof.ValueKI
import proofs.«116744_j18193481466337_2_alg».proof.Proof.ArgsKI
import proofs.«116744_j18193481466337_2_alg».proof.Proof.RefSpec
import proofs.«116744_j18193481466337_2_alg».proof.Proof.Gen.Kernel
import proofs.«116744_j18193481466337_2_alg».proof.Proof.Gen.KernelIdeal
import proofs.«116744_j18193481466337_2_alg».proof.Proof.Gen.ReferenceIdeal
import proofs.«116744_j18193481466337_2_alg».proof.Proof.Gen.Pre_finite_inputs

set_option maxRecDepth 16384

noncomputable section

namespace Cert.Proof.Claims

open Idealize.ShloMosaic Idealize.ShloMosaic.TcCoe Idealize.SL.Sem

/-- The word-level kernel runs and leaves its arguments unchanged. -/
theorem frame_k : Cert.frame_Kernel := fun m ρ _ => Cert.Kernel.HandFrame.frame m ρ

/-- The idealized kernel runs and leaves its arguments unchanged: its run with every buffer's final contents named,
    read at the ten arguments. -/
theorem frame_ki : Cert.frame_KernelIdeal := fun m ρ _ =>
  (θ_run Cert.KernelIdeal.defs _ _).mono
    (fun r h c => ⟨(h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c),
        (h c _ (Cert.KernelIdeal.Hand.mem_uc Cert.KernelIdeal.main_arg2 (by decide))).trans (Cert.KernelIdeal.Hand.W5_main_arg2 m ρ c),
        (h c _ (Cert.KernelIdeal.Hand.mem_uc Cert.KernelIdeal.main_arg3 (by decide))).trans (Cert.KernelIdeal.Hand.W5_main_arg3 m ρ c),
        (h c _ (Cert.KernelIdeal.Hand.mem_uc Cert.KernelIdeal.main_arg4 (by decide))).trans (Cert.KernelIdeal.Hand.W5_main_arg4 m ρ c),
        (h c _ (Cert.KernelIdeal.Hand.mem_uc Cert.KernelIdeal.main_arg5 (by decide))).trans (Cert.KernelIdeal.Hand.W5_main_arg5 m ρ c),
        (h c _ (Cert.KernelIdeal.Hand.mem_uc Cert.KernelIdeal.main_arg6 (by decide))).trans (Cert.KernelIdeal.Hand.W5_main_arg6 m ρ c),
        (h c _ (Cert.KernelIdeal.Hand.mem_uc Cert.KernelIdeal.main_arg7 (by decide))).trans (Cert.KernelIdeal.Hand.W5_main_arg7 m ρ c),
        (h c _ (Cert.KernelIdeal.Hand.mem_uc Cert.KernelIdeal.main_arg8 (by decide))).trans (Cert.KernelIdeal.Hand.W5_main_arg8 m ρ c),
        (h c _ (Cert.KernelIdeal.Hand.mem_uc Cert.KernelIdeal.main_arg9 (by decide))).trans (Cert.KernelIdeal.Hand.W5_main_arg9 m ρ c)⟩)
    (Cert.KernelIdeal.Hand.run_all m ρ)

/-- The reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.RefSpec.run_spec m ρ)

/-- The ideal pass rewrote no operation. -/
theorem preserves : Cert.preserves_Kernel_KernelIdeal := trivial

/-- From memories agreeing on the arguments the two idealized programs end with the same three results: the
    specification's, of those arguments. -/
theorem algebraic : Cert.algebraic_KernelIdeal_ReferenceIdeal := by
  intro m ρ m' ρ' _ hagree
  have hargs : ∀ c, Cert.ReferenceIdeal.RefSpec.argsOf m' c = Cert.KernelIdeal.Hand.argsK m c := fun c => by
    obtain ⟨h0, h1, h2, h3, h4, h5, h6, h7, h8, h9⟩ := hagree c
    unfold Cert.ReferenceIdeal.RefSpec.argsOf Cert.KernelIdeal.Hand.argsK
    rw [h0, h1, h2, h3, h4, h5, h6, h7, h8, h9]
  refine ⟨fun c => (Cert.KernelIdeal.Hand.argsK m c).out0, fun c => (Cert.KernelIdeal.Hand.argsK m c).out1,
    fun c => (Cert.KernelIdeal.Hand.argsK m c).out2, ?_, ?_⟩
  · exact (θ_run Cert.KernelIdeal.defs _ _).mono
      (fun r h c => ⟨(h c _ (Cert.KernelIdeal.Hand.mem_uc Cert.KernelIdeal.main_v0_0 (by decide))).trans (Cert.KernelIdeal.Hand.W5_out0 m ρ c),
        (h c _ (Cert.KernelIdeal.Hand.mem_uc Cert.KernelIdeal.main_v0_1 (by decide))).trans (Cert.KernelIdeal.Hand.W5_out1 m ρ c),
        (h c _ (Cert.KernelIdeal.Hand.mem_uc Cert.KernelIdeal.main_v0_2 (by decide))).trans (Cert.KernelIdeal.Hand.W5_out2 m ρ c),
        (h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c),
        (h c _ (Cert.KernelIdeal.Hand.mem_uc Cert.KernelIdeal.main_arg2 (by decide))).trans (Cert.KernelIdeal.Hand.W5_main_arg2 m ρ c),
        (h c _ (Cert.KernelIdeal.Hand.mem_uc Cert.KernelIdeal.main_arg3 (by decide))).trans (Cert.KernelIdeal.Hand.W5_main_arg3 m ρ c),
        (h c _ (Cert.KernelIdeal.Hand.mem_uc Cert.KernelIdeal.main_arg4 (by decide))).trans (Cert.KernelIdeal.Hand.W5_main_arg4 m ρ c),
        (h c _ (Cert.KernelIdeal.Hand.mem_uc Cert.KernelIdeal.main_arg5 (by decide))).trans (Cert.KernelIdeal.Hand.W5_main_arg5 m ρ c),
        (h c _ (Cert.KernelIdeal.Hand.mem_uc Cert.KernelIdeal.main_arg6 (by decide))).trans (Cert.KernelIdeal.Hand.W5_main_arg6 m ρ c),
        (h c _ (Cert.KernelIdeal.Hand.mem_uc Cert.KernelIdeal.main_arg7 (by decide))).trans (Cert.KernelIdeal.Hand.W5_main_arg7 m ρ c),
        (h c _ (Cert.KernelIdeal.Hand.mem_uc Cert.KernelIdeal.main_arg8 (by decide))).trans (Cert.KernelIdeal.Hand.W5_main_arg8 m ρ c),
        (h c _ (Cert.KernelIdeal.Hand.mem_uc Cert.KernelIdeal.main_arg9 (by decide))).trans (Cert.KernelIdeal.Hand.W5_main_arg9 m ρ c)⟩)
      (Cert.KernelIdeal.Hand.run_all m ρ)
  · exact (θ_run Cert.ReferenceIdeal.defs _ _).mono
      (fun r h c => by have hc := h c; rw [hargs c] at hc; exact hc)
      (Cert.ReferenceIdeal.RefSpec.run_spec m' ρ')

end Cert.Proof.Claims

end
-- ==== Proof.lean ====
/-
  The proof of `Cert.Claim`: one LSTM decoder step as two pipelined kernel regions — the gate pre-activations over
  16 blocks of 512 rows of the two weight matrices, the logits over 33 blocks of 1536 rows of the output weights,
  the last of which overhangs the 50257-row array — among host operations (an embedding row, the cell's elementwise
  update, a log-softmax), against the same step in plain array operations. The claims are proved in Proof/Claims.lean
  from: the frames of the two kernel programs (Proof/FrameK*.lean), the idealized kernel's run with every buffer's
  final contents named (Proof/FrameKI0.lean, Proof/Reg1*.lean, Proof/RunKI.lean, Proof/ArgsKI.lean), those contents
  as the specification's functions of the arguments (Proof/Spec.lean, Proof/Pay.lean, Proof/HostRead.lean,
  Proof/Blocks*.lean, Proof/ValueKI.lean), and the reference's run as the same functions (Proof/Ref*.lean).
-/
import proofs.«116744_j18193481466337_2_alg».proof.Defs
import proofs.«116744_j18193481466337_2_alg».proof.Proof.Claims
import proofs.«116744_j18193481466337_2_alg».proof.Proof.Gen.Kernel
import proofs.«116744_j18193481466337_2_alg».proof.Proof.Gen.Kernel.Skeleton
import proofs.«116744_j18193481466337_2_alg».proof.Proof.Gen.Kernel.Launch
import proofs.«116744_j18193481466337_2_alg».proof.Proof.Gen.Kernel.Regions
import proofs.«116744_j18193481466337_2_alg».proof.Proof.Gen.Kernel.Points
import proofs.«116744_j18193481466337_2_alg».proof.Proof.Gen.KernelIdeal
import proofs.«116744_j18193481466337_2_alg».proof.Proof.Gen.KernelIdeal.Skeleton
import proofs.«116744_j18193481466337_2_alg».proof.Proof.Gen.KernelIdeal.Launch
import proofs.«116744_j18193481466337_2_alg».proof.Proof.Gen.KernelIdeal.Regions
import proofs.«116744_j18193481466337_2_alg».proof.Proof.Gen.KernelIdeal.Points
import proofs.«116744_j18193481466337_2_alg».proof.Proof.Gen.ReferenceIdeal
import proofs.«116744_j18193481466337_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
